-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 80
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S1x64, .f32⟩
  | .hbm, ⟨69, _⟩ => ⟨S_, .f32⟩
  | .hbm, ⟨70, _⟩ => ⟨S1x64, .f32⟩
  | .hbm, ⟨71, _⟩ => ⟨S1x64, .f32⟩
  | .hbm, ⟨72, _⟩ => ⟨S_, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48_0 : Ref sig .tc := ⟨.hbm, 67, rfl⟩
abbrev main_v48_1 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  reduces_S10000x64_S64 : S10000x64.Reduces [0] S64
  shapeCasts_S64_S1x64 : S64.ShapeCasts S1x64
  bcast_S_S1x64 : S_.BroadcastsInDim S1x64 (![] : Fin 0 → Fin S1x64.rank)
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S_, .i32⟩
  | .hbm, ⟨73, _⟩ => ⟨S_, .f32⟩
  | .hbm, ⟨74, _⟩ => ⟨S64, .f32⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000x64, .f32⟩
  | .hbm, ⟨113, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_cst_3 : Ref sig .tc := ⟨.hbm, 89, rfl⟩
abbrev main_call1_v12 : Ref sig .tc := ⟨.hbm, 90, rfl⟩
abbrev main_call1_cst_4 : Ref sig .tc := ⟨.hbm, 91, rfl⟩
abbrev main_call1_call0_v0 : Ref sig .tc := ⟨.hbm, 92, rfl⟩
abbrev main_call1_call0_v1 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_12 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_13 : Ref sig .tc := ⟨.hbm, 111, rfl⟩
abbrev main_v67 : Ref sig .tc := ⟨.hbm, 112, rfl⟩
abbrev main_v68 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The kernel program's run, with the result named.

  The program is three kernel regions among stretches of host operations. Every weakly fair execution from a memory
  `m` terminates without a fault; the buffer contents at the end are the fold `Gen.W8 m ρ c` of the stretches and the
  regions' write-backs from the launch memory. Here the final state is read at the result buffer as well as at the six
  argument buffers: the result array is `Gen.W8 m ρ c` at the result buffer, and the arguments end as launched.
-/
import proofs.«162372_j88785563943645_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting; the result buffer ends at the
    final boundary's contents `Gen.W8 m ρ c`, and the six argument arrays end as launched. -/
theorem run_final : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.KTerm.lean ====
/-
  The aggregation as a pure function of its arguments, over the kernel program's constants.

  A graph on 100000 nodes is given by 1600000 directed edges (row 0 of the edge table the sources, row 1 the
  targets); every node also gets a loop edge, which makes 1700000 edges. With d(v) the number of edges that
  end at v and w(s → t) = d(s)^(-1/2) · 1 · d(t)^(-1/2), the aggregation of an array h is
  a(t, ·) = Σ_{s → t} w(s → t) · h(s, ·) + b. The array h is a parameter here.
-/
import proofs.«162372_j88785563943645_1_alg».proof.KernelIdeal
import Idealize.ShloMosaic.PureOps.Ideal

noncomputable section

namespace Cert.KernelIdeal.KTerm

open Idealize.ShloMosaic
open Cert.KernelIdeal.Facts₀ Cert.KernelIdeal.Facts

variable [Facts]

/-! ## The edge lists -/

/-- The node numbers 0, 1, …, 99999: the loop edges' ends. -/
def nodes : IVec S100000 32 := iotaInDim S100000 32 0

/-- The sources of the 1700000 edges: row 0 of the edge table, then every node once. -/
def src (e : IVec S2x1600000 32) : IVec S1700000 32 :=
  concatenate S1700000 0
    [⟨S1600000, shapeCast S1600000 (extractStridedSlice S1x1600000 ![0, 0] e slices_S2x1600000_S1x1600000_0_0) shapeCasts_S1x1600000_S1600000⟩,
     ⟨S100000, nodes⟩] concatenates_S1600000_S100000_S1700000_d0

/-- The targets of the 1700000 edges: row 1 of the edge table, then every node once. -/
def dst (e : IVec S2x1600000 32) : IVec S1700000 32 :=
  concatenate S1700000 0
    [⟨S1600000, shapeCast S1600000 (extractStridedSlice S1x1600000 ![1, 0] e slices_S2x1600000_S1x1600000_1_0) shapeCasts_S1x1600000_S1600000⟩,
     ⟨S100000, nodes⟩] concatenates_S1600000_S100000_S1700000_d0

/-- An index list with every negative entry moved up by 100000 (an index counted from the end). -/
def wrap (i : IVec S1700000 32) : IVec S1700000 32 :=
  select (cmpi .slt i (broadcastInDim S1700000 ![] bcast_S_S1700000 (constantI S_ 32 0#32)))
    (addi i (broadcastInDim S1700000 ![] bcast_S_S1700000 (constantI S_ 32 100000#32))) i

/-- An index list as a one-column table of start indices. -/
def col (i : IVec S1700000 32) : IVec S1700000x1 32 :=
  broadcastInDim S1700000x1 ![0] bcast_S1700000_S1700000x1_0 i

/-! ## The edge weights -/

/-- The weight 1 on every edge. -/
def ones : FVec Ideal S1700000 .f32 :=
  broadcastInDim S1700000 ![] bcast_S_S1700000 (constant (F := Ideal) S_ .f32 0x3F800000#32)

/-- The degree d(v): the sum of the weight 1 over the edges that end at v. -/
def deg (e : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32)) (col (dst e)) ones

/-- d(v)^(-1/2) where d(v) > 0, and 0 elsewhere. -/
def dinv (e : IVec S2x1600000 32) : FVec Ideal S100000 .f32 :=
  select (cmpf (F := Ideal) .ogt (deg e) (broadcastInDim S100000 ![] bcast_S_S100000 (constant (F := Ideal) S_ .f32 0x00000000#32)))
    (Host.rsqrt (F := Ideal) (deg e))
    (broadcastInDim S100000 ![] bcast_S_S100000 (id (constant (F := Ideal) S_ .f32 0x00000000#32)))

/-- The edge weights w(s → t) = d(s)^(-1/2) · 1 · d(t)^(-1/2). -/
def norm (e : IVec S2x1600000 32) : FVec Ideal S1700000 .f32 :=
  mulf (F := Ideal)
    (mulf (F := Ideal) (Host.gather gather_S100000_S1700000x1_S1700000_n_0_n_n_0_1_1 (dinv e) (col (wrap (src e)))) ones)
    (Host.gather gather_S100000_S1700000x1_S1700000_n_0_n_n_0_1_1 (dinv e) (col (wrap (dst e))))

/-! ## The aggregation -/

/-- a(t, ·) = Σ over the edges s → t of w(s → t) · h(s, ·), plus the bias b. -/
def agg (h : FVec Ideal S100000x64 .f32) (e : IVec S2x1600000 32) (b : FVec Ideal S64 .f32) : FVec Ideal S100000x64 .f32 :=
  addf (F := Ideal)
    (Host.scatterAdd (F := Ideal) scatter_S100000x64_S1700000x1_S1700000x64_1_0_0_1
      (broadcastInDim S100000x64 ![] bcast_S_S100000x64 (constant (F := Ideal) S_ .f32 0x00000000#32))
      (col (dst e))
      (mulf (F := Ideal)
        (Host.gather gather_S100000x64_S1700000x1_S1700000x64_1_0_n_n_0_1_164 h (col (wrap (src e))))
        (broadcastInDim S1700000x64 ![0, 1] bcast_S1700000x1_S1700000x64_0_1
          (broadcastInDim S1700000x1 ![0] bcast_S1700000_S1700000x1_0 (norm e)))))
    (broadcastInDim S100000x64 ![0, 1] bcast_S1x64_S100000x64_0_1 (broadcastInDim S1x64 ![1] bcast_S64_S1x64_1 b))

end Cert.KernelIdeal.KTerm

end
-- ==== Proof.KValue.lean ====
/-
  What the kernel program's buffers hold between its regions.

  The program's host operations are the same gather / scale / scatter-add chain as the reference's, cut into stretches by
  the three kernel regions. Reading the stretches one at a time: before the first region the buffers of the source
  indices, the target indices and the edge weights hold the corresponding stages of the aggregation as functions of the
  edge array; after the next stretch the aggregated array is the aggregation applied to what the first region left
  (the product `x · W`); after the last stretch the mean is the first statistic divided by the number of rows, the
  variance the second statistic divided by the number of rows minus the square of the mean, and the scale and shift
  vectors are laid out as rows.
-/
import proofs.«162372_j88785563943645_1_alg».proof.Proof.Gen.KernelIdeal.Frame
import proofs.«162372_j88785563943645_1_alg».proof.Proof.KTerm
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

/-- A stretch of host operations leaves a buffer none of them writes as it was. -/
macro "stretch_keeps" : tactic =>
  `(tactic| (refine StableHlo.after_of_forall_not_mem _ _ (List.forall_iff_forall_mem.mp ?_)
             simp only [hostOps0, hostOps0_1, hostOps0_2, hostOps1, hostOps2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg) (c : Dev nD)

/-! ## Before the first region, one stretch at a time -/

/-- After the first stretch: the source indices are the edge array's first row followed by every node's own index. -/
theorem w1_v3 : W1 (F := Ideal) m ρ c (Proc.devRef .tc main_v3) = KTerm.src (m ((c.tc : Thread nD τ).loc main_arg1)) := by
  show StableHlo.after hostOps0 (W0 m ρ c) (Proc.devRef .tc main_v3) = _
  after_results
  all_goals rfl
/-- The target indices: the edge array's second row followed by every node's own index. -/
theorem w1_v6 : W1 (F := Ideal) m ρ c (Proc.devRef .tc main_v6) = KTerm.dst (m ((c.tc : Thread nD τ).loc main_arg1)) := by
  show StableHlo.after hostOps0 (W0 m ρ c) (Proc.devRef .tc main_v6) = _
  after_results
  all_goals rfl
/-- The weight one on every edge. -/
theorem w1_v7 : W1 (F := Ideal) m ρ c (Proc.devRef .tc main_v7) = KTerm.ones := by
  show StableHlo.after hostOps0 (W0 m ρ c) (Proc.devRef .tc main_v7) = _
  after_results
  all_goals rfl
/-- The degrees: the number of edges ending at each node. -/
theorem w1_v10 : W1 (F := Ideal) m ρ c (Proc.devRef .tc main_v10) = KTerm.deg (m ((c.tc : Thread nD τ).loc main_arg1)) := by
  show StableHlo.after hostOps0 (W0 m ρ c) (Proc.devRef .tc main_v10) = _
  after_results
  all_goals rfl
/-- Which degrees are positive. -/
theorem w1_v12 : W1 (F := Ideal) m ρ c (Proc.devRef .tc main_v12) = cmpf (F := Ideal) .ogt (KTerm.deg (m ((c.tc : Thread nD τ).loc main_arg1))) (broadcastInDim S100000 ![] bcast_S_S100000 (constant (F := Ideal) S_ .f32 0x00000000#32)) := by
  show StableHlo.after hostOps0 (W0 m ρ c) (Proc.devRef .tc main_v12) = _
  after_results
  all_goals rfl
/-- The inverse square roots of the degrees. -/
theorem w1_v13 : W1 (F := Ideal) m ρ c (Proc.devRef .tc main_v13) = Host.rsqrt (F := Ideal) (KTerm.deg (m ((c.tc : Thread nD τ).loc main_arg1))) := by
  show StableHlo.after hostOps0 (W0 m ρ c) (Proc.devRef .tc main_v13) = _
  after_results
  all_goals rfl
theorem w1_cst2 : W1 (F := Ideal) m ρ c (Proc.devRef .tc main_cst_2) = constant (F := Ideal) S_ .f32 0x00000000#32 := by
  show StableHlo.after hostOps0 (W0 m ρ c) (Proc.devRef .tc main_cst_2) = _
  after_results
  all_goals rfl

/-- After the second stretch: the inverse square-root degree where the degree is positive, zero elsewhere. -/
theorem w2_v14 : W2 (F := Ideal) m ρ c (Proc.devRef .tc main_v14) = KTerm.dinv (m ((c.tc : Thread nD τ).loc main_arg1)) := by
  show StableHlo.after hostOps0_1 (W1 m ρ c) (Proc.devRef .tc main_v14) = _
  have h12 := w1_v12 m ρ c
  have h13 := w1_v13 m ρ c
  have hc := w1_cst2 m ρ c
  generalize W1 m ρ c = X at h12 h13 hc ⊢
  after_results
  show select (X (Proc.devRef .tc main_v12)) (X (Proc.devRef .tc main_v13))
      (broadcastInDim S100000 ![] bcast_S_S100000 (id (X (Proc.devRef .tc main_cst_2)))) = _
  rw [h12, h13, hc]
  rfl

/-- The second stretch writes none of the index lists nor the unit weights. -/
theorem w2_keep (b : Ref sig .tc) (hb : b = main_v3 ∨ b = main_v6 ∨ b = main_v7) :
    W2 (F := Ideal) m ρ c (Proc.devRef .tc b) = W1 m ρ c (Proc.devRef .tc b) := by
  show StableHlo.after hostOps0_1 (W1 m ρ c) (Proc.devRef .tc b) = _
  rcases hb with rfl | rfl | rfl
  all_goals stretch_keeps

/-- After the third stretch: the edge weights, the product of the two end points' inverse square-root degrees. -/
theorem w3_v30 : W3 (F := Ideal) m ρ c (Proc.devRef .tc main_v30) = KTerm.norm (m ((c.tc : Thread nD τ).loc main_arg1)) := by
  show StableHlo.after hostOps0_2 (W2 m ρ c) (Proc.devRef .tc main_v30) = _
  have h14 := w2_v14 m ρ c
  have h3 := (w2_keep m ρ c main_v3 (by simp)).trans (w1_v3 m ρ c)
  have h6 := (w2_keep m ρ c main_v6 (by simp)).trans (w1_v6 m ρ c)
  have h7 := (w2_keep m ρ c main_v7 (by simp)).trans (w1_v7 m ρ c)
  generalize W2 m ρ c = Y at h14 h3 h6 h7 ⊢
  after_results_simp
  rw [h14, h3, h6, h7]
  unfold KTerm.norm KTerm.col KTerm.wrap
  rfl

/-- The third stretch writes none of the index lists. -/
theorem w3_keep (b : Ref sig .tc) (hb : b = main_v3 ∨ b = main_v6) :
    W3 (F := Ideal) m ρ c (Proc.devRef .tc b) = W2 m ρ c (Proc.devRef .tc b) := by
  show StableHlo.after hostOps0_2 (W2 m ρ c) (Proc.devRef .tc b) = _
  rcases hb with rfl | rfl
  all_goals stretch_keeps
theorem w3_v3 : W3 (F := Ideal) m ρ c (Proc.devRef .tc main_v3) = KTerm.src (m ((c.tc : Thread nD τ).loc main_arg1)) :=
  (w3_keep m ρ c main_v3 (by simp)).trans ((w2_keep m ρ c main_v3 (by simp)).trans (w1_v3 m ρ c))
theorem w3_v6 : W3 (F := Ideal) m ρ c (Proc.devRef .tc main_v6) = KTerm.dst (m ((c.tc : Thread nD τ).loc main_arg1)) :=
  (w3_keep m ρ c main_v6 (by simp)).trans ((w2_keep m ρ c main_v6 (by simp)).trans (w1_v6 m ρ c))

/-- No host operation before the first region writes an argument. -/
theorem w3_arg (b : Ref sig .tc) (hb : b = main_arg0 ∨ b = main_arg2 ∨ b = main_arg3 ∨ b = main_arg4 ∨ b = main_arg5) :
    W3 (F := Ideal) m ρ c (Proc.devRef .tc b) = m ((c.tc : Thread nD τ).loc b) := by
  show StableHlo.after hostOps0_2 (StableHlo.after hostOps0_1 (StableHlo.after hostOps0 (W0 m ρ c))) (Proc.devRef .tc b) = _
  rcases hb with rfl | rfl | rfl | rfl | rfl
  all_goals
    refine Eq.trans (by stretch_keeps) (Eq.trans (by stretch_keeps) (Eq.trans (by stretch_keeps) rfl))

/-! ## Across the first region -/

/-- The first region writes only its result: the source indices are as before it. -/
theorem w4_v3 : W4 (F := Ideal) m ρ c (Proc.devRef .tc main_v3) = KTerm.src (m ((c.tc : Thread nD τ).loc main_arg1)) :=
  (W4_of_ne m ρ c main_v3 (by decide)).trans (w3_v3 m ρ c)
theorem w4_v6 : W4 (F := Ideal) m ρ c (Proc.devRef .tc main_v6) = KTerm.dst (m ((c.tc : Thread nD τ).loc main_arg1)) :=
  (W4_of_ne m ρ c main_v6 (by decide)).trans (w3_v6 m ρ c)
theorem w4_v30 : W4 (F := Ideal) m ρ c (Proc.devRef .tc main_v30) = KTerm.norm (m ((c.tc : Thread nD τ).loc main_arg1)) :=
  (W4_of_ne m ρ c main_v30 (by decide)).trans (w3_v30 m ρ c)
theorem w4_arg (b : Ref sig .tc) (hb : b = main_arg3 ∨ b = main_arg4 ∨ b = main_arg5) :
    W4 (F := Ideal) m ρ c (Proc.devRef .tc b) = m ((c.tc : Thread nD τ).loc b) := by
  rcases hb with rfl | rfl | rfl
  · exact (W4_of_ne m ρ c main_arg3 (by decide)).trans (w3_arg m ρ c main_arg3 (by simp))
  · exact (W4_of_ne m ρ c main_arg4 (by decide)).trans (w3_arg m ρ c main_arg4 (by simp))
  · exact (W4_of_ne m ρ c main_arg5 (by decide)).trans (w3_arg m ρ c main_arg5 (by simp))

/-- The first region's result buffer holds what its write-backs leave. -/
theorem w4_v31 : W4 (F := Ideal) m ρ c (Proc.devRef .tc main_v31) = (dat0 (F := Ideal) (V3 m ρ) c).arrAt 2 cfg0.N :=
  W4_arr m ρ c 2

/-! ## After the second stretch -/

/-- The aggregated array: rows of the first region's result gathered at the sources, scaled by the edge weights,
    summed into the targets, plus the bias. -/
theorem w5_v47 : W5 (F := Ideal) m ρ c (Proc.devRef .tc main_v47)
    = KTerm.agg (W4 m ρ c (Proc.devRef .tc main_v31)) (m ((c.tc : Thread nD τ).loc main_arg1)) (m ((c.tc : Thread nD τ).loc main_arg3)) := by
  show StableHlo.after hostOps1 (W4 m ρ c) (Proc.devRef .tc main_v47) = _
  after_results_simp
  rw [w4_v3, w4_v6, w4_v30, w4_arg m ρ c main_arg3 (by simp)]
  unfold KTerm.agg KTerm.col KTerm.wrap
  rfl

/-- No operation of the second stretch writes the scale or the shift. -/
theorem w5_arg (b : Ref sig .tc) (hb : b = main_arg4 ∨ b = main_arg5) :
    W5 (F := Ideal) m ρ c (Proc.devRef .tc b) = m ((c.tc : Thread nD τ).loc b) := by
  show StableHlo.after hostOps1 (W4 m ρ c) (Proc.devRef .tc b) = _
  rcases hb with rfl | rfl
  · exact Eq.trans (by stretch_keeps) (w4_arg m ρ c main_arg4 (by simp))
  · exact Eq.trans (by stretch_keeps) (w4_arg m ρ c main_arg5 (by simp))

/-! ## Across the second region -/

/-- The second region only reads the aggregated array. -/
theorem w6_v47 : W6 (F := Ideal) m ρ c (Proc.devRef .tc main_v47) = W5 m ρ c (Proc.devRef .tc main_v47) :=
  (W6_arr m ρ c 0).trans (((dat1 (V5 m ρ) c).arrAt_in 0 rfl _).trans (A_eq1 (V5 m ρ) c 0))
/-- Its two result buffers hold what its write-backs leave. -/
theorem w6_v48_0 : W6 (F := Ideal) m ρ c (Proc.devRef .tc main_v48_0) = (dat1 (F := Ideal) (V5 m ρ) c).arrAt 1 cfg1.N :=
  W6_arr m ρ c 1
theorem w6_v48_1 : W6 (F := Ideal) m ρ c (Proc.devRef .tc main_v48_1) = (dat1 (F := Ideal) (V5 m ρ) c).arrAt 2 cfg1.N :=
  W6_arr m ρ c 2
theorem w6_arg (b : Ref sig .tc) (hb : b = main_arg4 ∨ b = main_arg5) :
    W6 (F := Ideal) m ρ c (Proc.devRef .tc b) = m ((c.tc : Thread nD τ).loc b) := by
  rcases hb with rfl | rfl
  · exact (W6_of_ne m ρ c main_arg4 (by decide)).trans (w5_arg m ρ c main_arg4 (by simp))
  · exact (W6_of_ne m ρ c main_arg5 (by decide)).trans (w5_arg m ρ c main_arg5 (by simp))

/-! ## After the third stretch: what the last region reads -/

theorem w7_v47 : W7 (F := Ideal) m ρ c (Proc.devRef .tc main_v47) = W6 m ρ c (Proc.devRef .tc main_v47) := by
  show StableHlo.after hostOps2 (W6 m ρ c) (Proc.devRef .tc main_v47) = _
  stretch_keeps

/-- The mean: the first statistic divided by the number of rows. -/
theorem w7_v50 : W7 (F := Ideal) m ρ c (Proc.devRef .tc main_v50)
    = Host.divf (F := Ideal) (W6 m ρ c (Proc.devRef .tc main_v48_0)) (broadcastInDim S1x64 ![] bcast_S_S1x64 (constant (F := Ideal) S_ .f32 0x47C35000#32)) := by
  show StableHlo.after hostOps2 (W6 m ρ c) (Proc.devRef .tc main_v50) = _
  after_results

/-- The variance: the second statistic divided by the number of rows, minus the square of the mean. -/
theorem w7_v54 : W7 (F := Ideal) m ρ c (Proc.devRef .tc main_v54)
    = subf (Host.divf (F := Ideal) (W6 m ρ c (Proc.devRef .tc main_v48_1)) (broadcastInDim S1x64 ![] bcast_S_S1x64 (constant (F := Ideal) S_ .f32 0x47C35000#32)))
        (mulf (Host.divf (F := Ideal) (W6 m ρ c (Proc.devRef .tc main_v48_0)) (broadcastInDim S1x64 ![] bcast_S_S1x64 (constant (F := Ideal) S_ .f32 0x47C35000#32)))
              (Host.divf (F := Ideal) (W6 m ρ c (Proc.devRef .tc main_v48_0)) (broadcastInDim S1x64 ![] bcast_S_S1x64 (constant (F := Ideal) S_ .f32 0x47C35000#32)))) := by
  show StableHlo.after hostOps2 (W6 m ρ c) (Proc.devRef .tc main_v54) = _
  after_results

/-- The scale and the shift, laid out as rows. -/
theorem w7_v55 : W7 (F := Ideal) m ρ c (Proc.devRef .tc main_v55)
    = shapeCast S1x64 (m ((c.tc : Thread nD τ).loc main_arg4)) shapeCasts_S64_S1x64 := by
  show StableHlo.after hostOps2 (W6 m ρ c) (Proc.devRef .tc main_v55) = _
  after_results
  rw [w6_arg m ρ c main_arg4 (by simp)]
  rfl
theorem w7_v56 : W7 (F := Ideal) m ρ c (Proc.devRef .tc main_v56)
    = shapeCast S1x64 (m ((c.tc : Thread nD τ).loc main_arg5)) shapeCasts_S64_S1x64 := by
  show StableHlo.after hostOps2 (W6 m ρ c) (Proc.devRef .tc main_v56) = _
  after_results
  rw [w6_arg m ρ c main_arg5 (by simp)]
  rfl

/-- The result buffer holds what the last region's write-backs leave. -/
theorem w8_v57 : W8 (F := Ideal) m ρ c (Proc.devRef .tc main_v57) = (dat2 (F := Ideal) (V7 m ρ) c).arrAt 5 cfg2.N :=
  W8_arr m ρ c 5

end Cert.KernelIdeal.KValue
end
-- ==== Proof.BnRegion.lean ====
/-
  The last kernel region: normalise, scale, shift and clamp.

  The region runs over ten grid points; point `t` reads rows `10000·t … 10000·t + 9999` of the aggregated array and the
  four row vectors (mean, variance, scale, shift: one block each, the same at every point), and writes the same rows of
  the result. Entry `(r, q)` of what it writes is `max ((a r q − mean q) · (var q + ε)^(−1/2) · scale q + shift q) 0`.
  Since that depends on the array index only, the ten blocks are the restrictions of one whole-array function `G`, and
  as the blocks tile the array, the array ends holding `G`.
-/
import proofs.«162372_j88785563943645_1_alg».proof.Proof.Gen.KernelIdeal.Frame
import Idealize.ShloMosaic.Lib.ValueIdx
import Idealize.ShloMosaic.Lib.Pipeline.Value
import Idealize.ShloMosaic.Lib.ValueLayout

set_option maxRecDepth 16384

noncomputable section

namespace Cert.KernelIdeal.BnRegion

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A row vector of 64 entries broadcast down 10000 rows, read at row `r`, column `q`, is its entry `q`. -/
theorem bcast_row (x : Vec Ideal S1x64 .f32) (r : Fin 10000) (q : Fin 64) :
    broadcastTo S10000x64 x broadcasts_S1x64_S10000x64 (ix2 r q) = x (ix2 0 q) :=
  broadcastTo_apply x _ (ix2 r q) (ix2 0 q) (fun a => by match a with | ⟨0, _⟩ => rfl | ⟨1, _⟩ => rfl)

/-- The body's result at row `r`, column `q` of a block: the block's entry minus the column's mean, times
    `(var + ε)^(−1/2)`, times the column's scale, plus its shift, clamped below at zero. -/
theorem pay_apply (x0 : Vec Ideal S10000x64 .f32) (x1 x2 x3 x4 : Vec Ideal S1x64 .f32) (r : Fin 10000) (q : Fin 64) :
    k2_pay1 (F := Ideal) x0 x1 x2 x3 x4 (ix2 r q) =
      max ((x0 (ix2 r q) - x1 (ix2 0 q)) * Ideal.rsqrt (x2 (ix2 0 q) + Ideal.ofBits .f32 0x3727C5AC#32) * x3 (ix2 0 q) + x4 (ix2 0 q)) (Ideal.ofBits .f32 0x00000000#32) := by
  unfold k2_pay1
  simp only [shapeCast_self]
  rw [maximumf_apply, addf_apply, mulf_apply, mulf_apply, subf_apply]
  rw [bcast_row, bcast_row, bcast_row, bcast_row]
  rfl

theorem hz : (![0, 0] : Fin 2 → Nat) = fun _ => 0 := funext fun a => by fin_cases a <;> rfl

/-- The whole array the region leaves, as one function of the five arrays it reads: entry `i` depends on the
    aggregated array at `i` and on the four row vectors at `i`'s column. -/
abbrev G (a0 : S100000x64.Idx → Elt Ideal .f32) (a1 a2 a3 a4 : S1x64.Idx → Elt Ideal .f32) : S100000x64.Idx → Elt Ideal .f32 :=
  fun i => max ((a0 i - a1 (ix2 0 (i 1))) * Ideal.rsqrt (a2 (ix2 0 (i 1)) + Ideal.ofBits .f32 0x3727C5AC#32) * a3 (ix2 0 (i 1)) + a4 (ix2 0 (i 1))) (Ideal.ofBits .f32 0x00000000#32)

/-- The body's result at any index of a block. -/
theorem pay_eq (x0 : Vec Ideal S10000x64 .f32) (x1 x2 x3 x4 : Vec Ideal S1x64 .f32) (j : S10000x64.Idx) :
    k2_pay1 (F := Ideal) x0 x1 x2 x3 x4 j =
      max ((x0 j - x1 (ix2 0 (j 1))) * Ideal.rsqrt (x2 (ix2 0 (j 1)) + Ideal.ofBits .f32 0x3727C5AC#32) * x3 (ix2 0 (j 1)) + x4 (ix2 0 (j 1))) (Ideal.ofBits .f32 0x00000000#32) := by
  obtain ⟨r, q, rfl⟩ : ∃ (r : Fin 10000) (q : Fin 64), j = ix2 r q := ⟨j 0, j 1, eq_ix2 j⟩
  exact pay_apply x0 x1 x2 x3 x4 r q

/-- The index maps over the grid: the aggregated array's block moves with the output's, down the rows; the four row
    vectors stay at their one block. -/
theorem idx_facts : ∀ t : Fin cfg2.N, win2_0.index t (0 : Fin 2) = win2_5.index t (0 : Fin 2)
    ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every block of rows is some point's. -/
theorem idx_onto : ∀ (q0 : Fin 10), ∃ t : Fin cfg2.N, win2_5.index t = ![q0.val, 0] :=
  (by decide +kernel : ∀ (q0 : Fin 10), ∃ t : Fin grid2.N, win2_5.index t = ![q0.val, 0])

variable (V : (c : Dev nD) → (b : Ref sig .tc) → Buf (Elt Ideal) ((c : Thread nD τ).loc b))

set_option maxHeartbeats 4000000 in
/-- What point `t` writes back is block `t` of `G` of the arrays as the region finds them. -/
theorem flushed_eq (c : Dev nD) (t : Fin cfg2.N) :
    (dat2 (F := Ideal) V c).flushed 5 t = ((cfg2.win 5).blk t).view.read (Elt Ideal)
      (G (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S10000x64) hz, View.ld_unit_zero (S := S1x64) hz]
  obtain ⟨e0, e1, e2, e3, e4, e5, e6, e7, e8, e9, e10, e11⟩ := idx_facts t
  funext j
  refine (pay_eq _ _ _ _ _ j).trans ?_
  have h0 : ((cfg2.win 0).blk t).view.emb j = ((cfg2.win 5).blk t).view.emb j := by
    funext a; apply Fin.ext
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 64 + 1 * (j 1).val = win2_5.index t (1 : Fin 2) * 64 + 1 * (j 1).val; omega
  have h1 : ((cfg2.win 1).blk t).view.emb (ix2 (0 : Fin 1) (j 1 : Fin 64)) = ix2 (0 : Fin 1) (((((cfg2.win 5).blk t).view.emb j) 1 : Fin 64)) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_5.index t (1 : Fin 2) * 64 + 1 * (j 1).val; omega
  have h2 : ((cfg2.win 2).blk t).view.emb (ix2 (0 : Fin 1) (j 1 : Fin 64)) = ix2 (0 : Fin 1) (((((cfg2.win 5).blk t).view.emb j) 1 : Fin 64)) := by
    funext a; apply Fin.ext
    match a with
    | ⟨0, _⟩ => show win2_2.index t (0 : Fin 2) * 1 + 1 * 0 = 0; omega
    | ⟨1, _⟩ => show win2_2.index t (1 : Fin 2) * 64 + 1 * (j 1).val = win2_5.index t (1 : Fin 2) * 64 + 1 * (j 1).val; omega
  have h3 : ((cfg2.win 3).blk t).view.emb (ix2 (0 : Fin 1) (j 1 : Fin 64)) = ix2 (0 : Fin 1) (((((cfg2.win 5).blk t).view.emb j) 1 : Fin 64)) := by
    funext a; apply Fin.ext
    match a with
    | ⟨0, _⟩ => show win2_3.index t (0 : Fin 2) * 1 + 1 * 0 = 0; omega
    | ⟨1, _⟩ => show win2_3.index t (1 : Fin 2) * 64 + 1 * (j 1).val = win2_5.index t (1 : Fin 2) * 64 + 1 * (j 1).val; omega
  have h4 : ((cfg2.win 4).blk t).view.emb (ix2 (0 : Fin 1) (j 1 : Fin 64)) = ix2 (0 : Fin 1) (((((cfg2.win 5).blk t).view.emb j) 1 : Fin 64)) := by
    funext a; apply Fin.ext
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega
  have key : ∀ (a0 : S100000x64.Idx → Elt Ideal .f32) (a1 a2 a3 a4 : S1x64.Idx → Elt Ideal .f32),
      max ((a0 (((cfg2.win 0).blk t).view.emb j) - a1 (((cfg2.win 1).blk t).view.emb (ix2 (0 : Fin 1) (j 1 : Fin 64))))
        * Ideal.rsqrt (a2 (((cfg2.win 2).blk t).view.emb (ix2 (0 : Fin 1) (j 1 : Fin 64))) + Ideal.ofBits .f32 0x3727C5AC#32)
        * a3 (((cfg2.win 3).blk t).view.emb (ix2 (0 : Fin 1) (j 1 : Fin 64)))
        + a4 (((cfg2.win 4).blk t).view.emb (ix2 (0 : Fin 1) (j 1 : Fin 64)))) (Ideal.ofBits .f32 0x00000000#32)
      = G a0 a1 a2 a3 a4 (((cfg2.win 5).blk t).view.emb j) := by
    intro a0 a1 a2 a3 a4
    rw [h0, h1, h2, h3, h4]
    rfl
  exact key (V c (Pipeline.arrRef spec2 0)) (V c (Pipeline.arrRef spec2 1)) (V c (Pipeline.arrRef spec2 2)) (V c (Pipeline.arrRef spec2 3)) (V c (Pipeline.arrRef spec2 4))

/-- An index of the array lies in point `t`'s block iff each coordinate is in the block's range on its axis. -/
theorem mem_blk (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v57).slice (win2_5.rect t)).set ↔ _
  rw [View.set_slice_whole, Rect.mem_set_unit]
  exact Iff.rfl

/-- Every index of the array lies in the block of the point that owns its row: row `r` belongs to point `r / 10000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The array the region leaves: `G` of the five arrays it reads, as the region finds them. -/
theorem arr_eq (c : Dev nD) : (dat2 (F := Ideal) V c).arrAt 5 cfg2.N
    = G (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => flushed_eq V c t) cover

/-- The array the region leaves, at row `p`, column `q`. -/
theorem arr_apply (c : Dev nD) (p : Fin 100000) (q : Fin 64) :
    (dat2 (F := Ideal) V c).arrAt 5 cfg2.N (ix2 p q)
      = G (V c (Pipeline.arrRef spec2 0)) (V c (Pipeline.arrRef spec2 1)) (V c (Pipeline.arrRef spec2 2)) (V c (Pipeline.arrRef spec2 3)) (V c (Pipeline.arrRef spec2 4)) (ix2 p q) := by
  rw [arr_eq]

end Cert.KernelIdeal.BnRegion

end
-- ==== Proof.StatsRegion.lean ====
/-
  THE STATISTICS REGION, READ AS SUMS. The second region of the kernel's program runs a grid of ten
  points over the 100000x64 input array, one block of 10000 rows per point, and carries two 1x64 accumulators from point
  to point: at point 0 both are set to zero; at every point the column sums of the block are added to the first and the
  column sums of the block's squares to the second; both are written back once, after the last point.

  Read at the ideal values (extended reals), where addition is commutative and associative whatever the values:
    sum_apply   — entry (0, q) of the first result array after the last point is the sum over ALL 100000 rows of column q;
    sumsq_apply — entry (0, q) of the second is the sum over all rows of the squares of column q;
  both for ANY contents `V` of the buffers when the region is entered (the input array is `arr V c`).

  The steps: each control case's stores read back as one payload (`out_A_1` … `out_B_2`); each payload read at a lane as
  "old contents + a sum over the block's 10000 rows" (`pay4_apply`, `pay5_apply`: the reduction over axis 0 is a
  `Fin`-indexed sum, the casts between [64] and [1,64] keep the row-major position, the zero word is 0); an element of
  the block at point t is the array's element at row 10000 t + r (`iblk_apply`); by induction on the point the
  accumulators hold the sums over blocks 0..n (`outs1_eq`, `outs2_eq`); the one write-back at point 9 covers each
  result array (`final1`, `final2`); and the ten blocks of 10000 rows are the 100000 rows (`rowEquiv`, `sum_blocks`).
-/
import proofs.«162372_j88785563943645_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.StatsRegion

open Cert.KernelIdeal Cert.KernelIdeal.Gen

theorem hz : (![0, 0] : Fin 2 → Nat) = fun _ => 0 := funext fun a => by fin_cases a <;> rfl

section Pieces
variable {F : FTy → Type} [FloatOps F]

/-- Case B, output 1: the one covering store's payload, over the whole buffers the loads read. -/
theorem out_B_1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S10000x64) hz,
    View.ld_unit_zero (S := S1x64) hz]

/-- Case B, output 2. -/
theorem out_B_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S10000x64) hz,
    View.ld_unit_zero (S := S1x64) hz]

/-- Case A, output 1: the zero block is stored, read back, and the column sums added to it. -/
theorem out_A_1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S10000x64) hz]

/-- Case A, output 2. -/
theorem out_A_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S10000x64) hz]

end Pieces

section AtIdeal

/-- The inserted index of the axis-0 reduction: row `k`, lane `q`. -/
theorem lift_eq (q : Fin 64) (k : Fin 10000) : reduces_S10000x64_S64.lift (ix1 q) k = ix2 k q := by
  funext a
  match a with
  | ⟨0, _⟩ => rfl
  | ⟨1, _⟩ => rfl

/-- Lane `q` of the rank-1 vector and entry (0, q) of the one-row matrix have the same row-major position. -/
theorem rm_eq (q : Fin 64) : (S64.rowMajor (ix1 q)).val = (S1x64.rowMajor (ix2 (0 : Fin 1) q)).val :=
  (Shape.rowMajor_val_one (d := ![64]) (ix1 q)).trans
    (Eq.symm ((Shape.rowMajor_val_two (d := ![1, 64]) (ix2 (0 : Fin 1) q)).trans
      (by show (0 : ℕ) * 64 + q.val = q.val; omega)))

/-- The zero block reads the extended real 0. -/
theorem pay1_apply (j : S1x64.Idx) : k1_pay1 (F := Ideal) j = 0 := Ideal.ofBits_zero_f32
theorem pay2_apply (j : S1x64.Idx) : k1_pay2 (F := Ideal) j = 0 := Ideal.ofBits_zero_f32

/-- The first accumulator's new contents at lane `q`: the old contents plus the column sum of the block. -/
theorem pay4_apply (x : FVec Ideal S10000x64 .f32) (xo : FVec Ideal S1x64 .f32) (q : Fin 64) :
    k1_pay4 (F := Ideal) x xo (ix2 (0 : Fin 1) q) = xo (ix2 (0 : Fin 1) q) + ∑ r : Fin 10000, x (ix2 r q) := by
  unfold k1_pay4 k1_pay3
  simp only [shapeCast_self]
  refine (addf_apply _ _ _).trans ?_
  refine congrArg (xo (ix2 (0 : Fin 1) q) + ·) ?_
  refine (shapeCast_apply _ shapeCasts_S64_S1x64 (ix2 (0 : Fin 1) q) (ix1 q) (rm_eq q)).trans ?_
  refine (Ideal.multiReduction_add_single x 0x00000000#32 reduces_S10000x64_S64 (.inl rfl) rfl (ix1 q)).trans ?_
  exact Finset.sum_congr rfl fun k _ => congrArg x (lift_eq q k)

/-- The second accumulator's new contents at lane `q`: the old contents plus the column sum of the squares. -/
theorem pay5_apply (x : FVec Ideal S10000x64 .f32) (xo : FVec Ideal S1x64 .f32) (q : Fin 64) :
    k1_pay5 (F := Ideal) x xo (ix2 (0 : Fin 1) q)
      = xo (ix2 (0 : Fin 1) q) + ∑ r : Fin 10000, x (ix2 r q) * x (ix2 r q) := by
  unfold k1_pay5 k1_pay3
  simp only [shapeCast_self]
  refine (addf_apply _ _ _).trans ?_
  refine congrArg (xo (ix2 (0 : Fin 1) q) + ·) ?_
  refine (shapeCast_apply _ shapeCasts_S64_S1x64 (ix2 (0 : Fin 1) q) (ix1 q) (rm_eq q)).trans ?_
  refine (Ideal.multiReduction_add_single (mulf x x) 0x00000000#32 reduces_S10000x64_S64 (.inl rfl) rfl (ix1 q)).trans ?_
  exact Finset.sum_congr rfl fun k _ => (mulf_apply x x _).trans (by rw [lift_eq q k])

end AtIdeal

/-! ## Rows of the input array, block by block -/

/-- Row `r` of row block `s` of the 100000-row array (the block number is a natural; below 10 the remainder is idle). -/
def row (s : ℕ) (r : Fin 10000) : Fin 100000 := ⟨(10000 * s + r.val) % 100000, Nat.mod_lt _ (by decide)⟩

/-- The ten blocks of 10000 rows are the 100000 rows. -/
def rowEquiv : Fin 10 × Fin 10000 ≃ Fin 100000 where
  toFun x := row x.1.val x.2
  invFun p := (⟨p.val / 10000, by have := p.isLt; omega⟩, ⟨p.val % 10000, Nat.mod_lt _ (by decide)⟩)
  left_inv x := by
    obtain ⟨⟨s, hs⟩, ⟨r, hr⟩⟩ := x
    refine Prod.ext (Fin.ext ?_) (Fin.ext ?_)
    · show (10000 * s + r) % 100000 / 10000 = s; omega
    · show (10000 * s + r) % 100000 % 10000 = r; omega
  right_inv p := by
    apply Fin.ext
    show (10000 * (p.val / 10000) + p.val % 10000) % 100000 = p.val
    have := p.isLt; omega

/-- A sum over the ten blocks of the sums over a block's rows is the sum over all rows (any commutative monoid). -/
theorem sum_blocks {M : Type*} [AddCommMonoid M] (f : Fin 100000 → M) :
    ∑ s ∈ Finset.range 10, ∑ r : Fin 10000, f (row s r) = ∑ p : Fin 100000, f p := by
  rw [← Fin.sum_univ_eq_sum_range (fun s => ∑ r : Fin 10000, f (row s r)) 10, ← Equiv.sum_comp rowEquiv f,
    Fintype.sum_prod_type]
  rfl

section Block
variable {F : FTy → Type} [FloatOps F]
variable (V : (c : Dev nD) → (b : Ref sig .tc) → Buf (Elt F) ((c : Thread nD τ).loc b))

/-- The input window's block index at point `t` is (t, 0). -/
theorem index0 (t : Fin cfg1.N) : win1_0.index t 0 = t.val ∧ win1_0.index t 1 = 0 := by
  rcases fin_N1 t with rfl | rfl | rfl | rfl | rfl | rfl | rfl | rfl | rfl | rfl <;> decide

/-- Element (r, q) of the input block at point `t` is element (10000 t + r, q) of the input array. -/
theorem iblk_apply (c : Dev nD) (t : Fin cfg1.N) (r : Fin 10000) (q : Fin 64) :
    (iblk1 V c 0 t : Vec F S10000x64 .f32) (ix2 r q)
      = (V c (Pipeline.arrRef spec1 0) : Vec F S100000x64 .f32) (ix2 (row t.val r) q) := by
  have hN : t.val < 10 := lt_of_lt_of_eq t.isLt (show cfg1.N = 10 from N_1)
  unfold iblk1
  rw [View.read_apply]
  show V c (Pipeline.arrRef spec1 0) _ = V c (Pipeline.arrRef spec1 0) _
  congr 1
  funext a
  apply Fin.ext
  match a with
  | ⟨0, _⟩ =>
    show win1_0.index t 0 * 10000 + 1 * r.val = (10000 * t.val + r.val) % 100000
    rw [(index0 t).1]; omega
  | ⟨1, _⟩ =>
    show win1_0.index t 1 * 64 + 1 * q.val = q.val
    rw [(index0 t).2]; omega

end Block

/-! ## Each case's contents at a lane, at the ideal values -/

section Cases

/-- Case A leaves in the first accumulator, at lane `q`, the column sum of the block (the zero it starts from adds nothing). -/
theorem A1_apply (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec Ideal S10000x64 .f32) (q : Fin 64) :
    out1_A_1 (F := Ideal) c i a1 h1 a2 h2 a3 h3 hc x (ix2 (0 : Fin 1) q) = ∑ r : Fin 10000, x (ix2 r q) := by
  rw [out_A_1 (F := Ideal) c i a1 h1 a2 h2 a3 h3 hc x]
  refine (pay4_apply x (k1_pay1 (F := Ideal)) q).trans ?_
  rw [pay1_apply, zero_add]

/-- Case A leaves in the second accumulator, at lane `q`, the column sum of the block's squares. -/
theorem A2_apply (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec Ideal S10000x64 .f32) (q : Fin 64) :
    out1_A_2 (F := Ideal) c i a1 h1 a2 h2 a3 h3 hc x (ix2 (0 : Fin 1) q) = ∑ r : Fin 10000, x (ix2 r q) * x (ix2 r q) := by
  rw [out_A_2 (F := Ideal) c i a1 h1 a2 h2 a3 h3 hc x]
  refine (pay5_apply x (k1_pay2 (F := Ideal)) q).trans ?_
  rw [pay2_apply, zero_add]

/-- Case B adds the block's column sum to what the first accumulator held. -/
theorem B1_apply (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec Ideal S10000x64 .f32) (xo1 xo2 : Vec Ideal S1x64 .f32) (q : Fin 64) :
    out1_B_1 (F := Ideal) c i a1 h1 a2 h2 a3 h3 hc x xo1 xo2 (ix2 (0 : Fin 1) q)
      = xo1 (ix2 (0 : Fin 1) q) + ∑ r : Fin 10000, x (ix2 r q) := by
  rw [out_B_1 (F := Ideal) c i a1 h1 a2 h2 a3 h3 hc x xo1 xo2]
  exact pay4_apply x xo1 q

/-- Case B adds the column sum of the block's squares to what the second accumulator held. -/
theorem B2_apply (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec Ideal S10000x64 .f32) (xo1 xo2 : Vec Ideal S1x64 .f32) (q : Fin 64) :
    out1_B_2 (F := Ideal) c i a1 h1 a2 h2 a3 h3 hc x xo1 xo2 (ix2 (0 : Fin 1) q)
      = xo2 (ix2 (0 : Fin 1) q) + ∑ r : Fin 10000, x (ix2 r q) * x (ix2 r q) := by
  rw [out_B_2 (F := Ideal) c i a1 h1 a2 h2 a3 h3 hc x xo1 xo2]
  exact pay5_apply x xo2 q

end Cases

/-! ## The running sums after each point -/

section Run
variable (V : (c : Dev nD) → (b : Ref sig .tc) → Buf (Elt Ideal) ((c : Thread nD τ).loc b))

/-- The input array of the region, as it is entered. -/
abbrev arr (c : Dev nD) : Vec Ideal S100000x64 .f32 := V c (Pipeline.arrRef spec1 0)

/-- After point `n` the first accumulator holds, at lane `q`, the sum over the rows of blocks 0..n. -/
theorem outs1_eq (c : Dev nD) : ∀ (n : ℕ) (h : n < cfg1.N) (q : Fin 64),
    (outsAt1 (F := Ideal) V c n h).1 (ix2 (0 : Fin 1) q)
      = ∑ s ∈ Finset.range (n + 1), ∑ r : Fin 10000, arr V c (ix2 (row s r) q)
  | 0, h, q => by
    rw [outsAt1_A V c ⟨0, h⟩ rfl]
    dsimp only
    refine (A1_apply c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (iblk1 V c 0 ⟨0, h⟩) q).trans ?_
    rw [Finset.sum_range_one]
    exact Finset.sum_congr rfl fun r _ => iblk_apply V c ⟨0, h⟩ r q
  | n + 1, h, q => by
    have hN : cfg1.N = 10 := N_1
    have hB : ¬(⟨n + 1, h⟩ : Fin cfg1.N).val % 10 = 0 := by dsimp only; omega
    have ih := outs1_eq c n (Nat.lt_of_succ_lt h) q
    rw [outsAt1_B V c ⟨n + 1, h⟩ hB]
    dsimp only
    refine (B1_apply c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (iblk1 V c 0 ⟨n + 1, h⟩) _ _ q).trans ?_
    rw [Finset.sum_range_succ _ (n + 1)]
    exact congrArg₂ (· + ·) ih (Finset.sum_congr rfl fun r _ => iblk_apply V c ⟨n + 1, h⟩ r q)

/-- After point `n` the second accumulator holds, at lane `q`, the sum of the squares over the rows of blocks 0..n. -/
theorem outs2_eq (c : Dev nD) : ∀ (n : ℕ) (h : n < cfg1.N) (q : Fin 64),
    (outsAt1 (F := Ideal) V c n h).2 (ix2 (0 : Fin 1) q)
      = ∑ s ∈ Finset.range (n + 1), ∑ r : Fin 10000, arr V c (ix2 (row s r) q) * arr V c (ix2 (row s r) q)
  | 0, h, q => by
    rw [outsAt1_A V c ⟨0, h⟩ rfl]
    dsimp only
    refine (A2_apply c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (iblk1 V c 0 ⟨0, h⟩) q).trans ?_
    rw [Finset.sum_range_one]
    exact Finset.sum_congr rfl fun r _ => by rw [iblk_apply V c ⟨0, h⟩ r q]
  | n + 1, h, q => by
    have hN : cfg1.N = 10 := N_1
    have hB : ¬(⟨n + 1, h⟩ : Fin cfg1.N).val % 10 = 0 := by dsimp only; omega
    have ih := outs2_eq c n (Nat.lt_of_succ_lt h) q
    rw [outsAt1_B V c ⟨n + 1, h⟩ hB]
    dsimp only
    refine (B2_apply c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (iblk1 V c 0 ⟨n + 1, h⟩) _ _ q).trans ?_
    rw [Finset.sum_range_succ _ (n + 1)]
    exact congrArg₂ (· + ·) ih (Finset.sum_congr rfl fun r _ => by rw [iblk_apply V c ⟨n + 1, h⟩ r q])

end Run

/-! ## The result arrays after the last point -/

section Final
variable (V : (c : Dev nD) → (b : Ref sig .tc) → Buf (Elt Ideal) ((c : Thread nD τ).loc b))

theorem lt9 : 9 < cfg1.N := by rw [show cfg1.N = 10 from N_1]; decide

/-- What the first accumulator holds after the last point, as contents of its result array (its one block is the array). -/
abbrev res1 (c : Dev nD) : Buf (Elt Ideal) ((c : Thread nD τ).loc main_v48_0) := (outsAt1 (F := Ideal) V c 9 lt9).1
/-- What the second accumulator holds after the last point, as contents of its result array. -/
abbrev res2 (c : Dev nD) : Buf (Elt Ideal) ((c : Thread nD τ).loc main_v48_1) := (outsAt1 (F := Ideal) V c 9 lt9).2

/-- The one write-back of window 1, at point 9, writes it: block (0, 0) of the [1,64] array read through zero offsets is the array. -/
theorem flushed1_eq (c : Dev nD) (t : Fin cfg1.N) (hf : (cfg1.win 1).flush t = true) :
    (dat1 (F := Ideal) V c).flushed 1 t = ((cfg1.win 1).blk t).view.read (Elt Ideal) (res1 V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 (F := Ideal) V c).after 1 t1_9) = _
  rw [after1_1]
  have hz' : (fun a => win1_1.index t1_9 a * main_v48_0.ty.shape.size a) = fun _ => 0 := funext fun a => by fin_cases a <;> decide
  exact (Memref.read_access_unit_zero (Elt Ideal) main_v48_0 hz' (fun a => by rw [congrFun hz' a]; simp) (res1 V c)).symm

/-- The one write-back of window 2, at point 9, likewise. -/
theorem flushed2_eq (c : Dev nD) (t : Fin cfg1.N) (hf : (cfg1.win 2).flush t = true) :
    (dat1 (F := Ideal) V c).flushed 2 t = ((cfg1.win 2).blk t).view.read (Elt Ideal) (res2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 (F := Ideal) V c).after 2 t1_9) = _
  rw [after1_2]
  have hz' : (fun a => win1_2.index t1_9 a * main_v48_1.ty.shape.size a) = fun _ => 0 := funext fun a => by fin_cases a <;> decide
  exact (Memref.read_access_unit_zero (Elt Ideal) main_v48_1 hz' (fun a => by rw [congrFun hz' a]; simp) (res2 V c)).symm

/-- So the first result array ends holding the first accumulator's contents after point 9 (that point's block covers it). -/
theorem final1 (c : Dev nD) : (dat1 (F := Ideal) V c).arrAt 1 cfg1.N = res1 V c :=
  (dat1 (F := Ideal) V c).arrAt_eq_of_cover 1 (res1 V c) (flushed1_eq V c) fun i =>
    ⟨t1_9, (flush1_1 t1_9).mpr rfl, by
      show i ∈ ((View.whole main_v48_0).slice (win1_1.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_1.index t1_9 0 * win1_1.size 0 ≤ (i 0 : Nat) ∧ (i 0 : Nat) < win1_1.index t1_9 0 * win1_1.size 0 + win1_1.xsize (grid1.coords t1_9) 0
                  rw [show win1_1.index t1_9 0 * win1_1.size 0 = 0 from by decide +kernel, show win1_1.xsize (grid1.coords t1_9) 0 = 1 from by decide +kernel]; omega
      | ⟨1, _⟩ => show win1_1.index t1_9 1 * win1_1.size 1 ≤ (i 1 : Nat) ∧ (i 1 : Nat) < win1_1.index t1_9 1 * win1_1.size 1 + win1_1.xsize (grid1.coords t1_9) 1
                  rw [show win1_1.index t1_9 1 * win1_1.size 1 = 0 from by decide +kernel, show win1_1.xsize (grid1.coords t1_9) 1 = 64 from by decide +kernel]; omega⟩

/-- And the second result array the second accumulator's. -/
theorem final2 (c : Dev nD) : (dat1 (F := Ideal) V c).arrAt 2 cfg1.N = res2 V c :=
  (dat1 (F := Ideal) V c).arrAt_eq_of_cover 2 (res2 V c) (flushed2_eq V c) fun i =>
    ⟨t1_9, (flush1_2 t1_9).mpr rfl, by
      show i ∈ ((View.whole main_v48_1).slice (win1_2.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 64 from by decide +kernel]; omega⟩

/-- THE COLUMN SUMS. After the last grid point, entry (0, q) of the first result array is the sum over all 100000 rows of
    column `q` of the input array as the region found it. -/
theorem sum_apply (c : Dev nD) (q : Fin 64) :
    (dat1 (F := Ideal) V c).arrAt 1 cfg1.N (ix2 (0 : Fin 1) q) = ∑ p : Fin 100000, arr V c (ix2 p q) := by
  rw [final1 V c]
  refine (outs1_eq V c 9 lt9 q).trans ?_
  exact sum_blocks fun p => arr V c (ix2 p q)

/-- THE COLUMN SUMS OF SQUARES. Entry (0, q) of the second result array is the sum over all rows of the squares. -/
theorem sumsq_apply (c : Dev nD) (q : Fin 64) :
    (dat1 (F := Ideal) V c).arrAt 2 cfg1.N (ix2 (0 : Fin 1) q)
      = ∑ p : Fin 100000, arr V c (ix2 p q) * arr V c (ix2 p q) := by
  rw [final2 V c]
  refine (outs2_eq V c 9 lt9 q).trans ?_
  exact sum_blocks fun p => arr V c (ix2 p q) * arr V c (ix2 p q)

end Final

end Cert.KernelIdeal.StatsRegion

end
-- ==== Proof.MatmulRegion.lean ====
import proofs.«162372_j88785563943645_1_alg».proof.Proof.Gen.KernelIdeal.Frame
import Idealize.ShloMosaic.Lib.ValueIdx
import Idealize.ShloMosaic.Lib.Pipeline.Value
import Idealize.ShloMosaic.PureOps.Ideal.Laws

noncomputable section

/-! The first region multiplies a 100000 x 64 array by a 64 x 64 array in ten row blocks of 10000 rows: grid
    point t reads row block t of the left array and the whole right array, and writes row block t of the output.
    Entry (r, q) of a block product is the sum over the 64 contracted positions of the products of row r of the
    left block with column q of the right array (both format changes are the identity on extended reals, and the
    accumulator starts at zero). Row r of block t is row 10000 t + r of the array and the ten blocks tile the
    output, so the output array is the product of the two arrays entry by entry. No sum is rearranged and nothing
    is cancelled, so no entry needs to be finite. -/

namespace Cert.KernelIdeal.MatmulRegion

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The record of the block product: it contracts axis 1 of the left block with axis 0 of the right block. -/
abbrev blockDot : DotDims S10000x64 S64x64 S10000x64 := dot_S10000x64_S64x64_S10000x64_1_0_0_1_n_n

/-- Entry (r, q) of the block product is the sum over the 64 contracted positions of the products of row r of
    the left block with column q of the right block: both format changes are the identity on extended reals and
    the accumulator the product starts from is the zero array. -/
theorem pay_apply (x0 : Vec Ideal S10000x64 .f32) (x1 : Vec Ideal S64x64 .f32) (r : Fin 10000) (q : Fin 64) :
    Gen.k0_pay1 (F := Ideal) x0 x1 (ix2 r q) = ∑ k : Fin 64, x0 (ix2 r k) * x1 (ix2 k q) := by
  unfold Gen.k0_pay1
  refine (Ideal.matmul_constant_zero_apply blockDot none _ _ (ix2 r q)).trans ?_
  rw [← Equiv.sum_comp (contrEquiv1 blockDot 64 rfl rfl).symm]
  refine Finset.sum_congr rfl fun k _ => ?_
  have hk := contrEquiv1_symm_val blockDot 64 rfl rfl k
  have el : blockDot.lhsIdx (ix2 r q) ((contrEquiv1 blockDot 64 rfl rfl).symm k) = ix2 r k :=
    funext fun a => Fin.ext (by
      match a with
      | ⟨0, _⟩ =>
        show (blockDot.lhsIdx (ix2 r q) _ (0 : Fin S10000x64.rank)).val = r.val
        unfold DotDims.lhsIdx
        rw [dif_neg (show ¬(0 : Fin S10000x64.rank) ∈ blockDot.lhsBatch by decide),
          dif_pos (show (0 : Fin S10000x64.rank) ∈ blockDot.lhsNonContracting by decide)]
        rfl
      | ⟨1, _⟩ => exact (blockDot.lhsIdx_val_of_single rfl (ix2 r q) _).trans hk)
  have er : blockDot.rhsIdx (ix2 r q) ((contrEquiv1 blockDot 64 rfl rfl).symm k) = ix2 k q :=
    funext fun a => Fin.ext (by
      match a with
      | ⟨0, _⟩ => exact (blockDot.rhsIdx_val_of_single rfl (ix2 r q) _).trans hk
      | ⟨1, _⟩ =>
        show (blockDot.rhsIdx (ix2 r q) _ (1 : Fin S64x64.rank)).val = q.val
        unfold DotDims.rhsIdx
        rw [dif_neg (show ¬(1 : Fin S64x64.rank) ∈ blockDot.rhsBatch by decide),
          dif_pos (show (1 : Fin S64x64.rank) ∈ blockDot.rhsNonContracting by decide)]
        rfl)
  rw [el, er]
  rfl

/-! ## From the block products to the whole array -/

/-- The product of a 100000 x 64 array by a 64 x 64 array, entry by entry: the textbook contraction. -/
def prod (X : S100000x64.Idx → EReal) (W : S64x64.Idx → EReal) : S100000x64.Idx → EReal :=
  fun i => ∑ k : Fin 64, X (ix2 (n0 := 100000) (i 0) k) * W (ix2 k (n1 := 64) (i 1))

/-- The same payload read at an index that is not yet split into its coordinates. -/
theorem pay_apply_idx (x0 : Vec Ideal S10000x64 .f32) (x1 : Vec Ideal S64x64 .f32) (j : S10000x64.Idx) :
    Gen.k0_pay1 (F := Ideal) x0 x1 j
      = ∑ k : Fin 64, x0 (ix2 (n0 := 10000) (j 0) k) * x1 (ix2 k (n1 := 64) (j 1)) := by
  obtain ⟨r, q, rfl⟩ : ∃ (r : Fin 10000) (q : Fin 64), j = ix2 r q := ⟨j 0, j 1, eq_ix2 j⟩
  exact pay_apply x0 x1 r q

/-- A product of two entries depends only on where the entries are read. -/
theorem mul_congr_idx (X : S100000x64.Idx → EReal) (W : S64x64.Idx → EReal) (a a' : S100000x64.Idx) (b b' : S64x64.Idx)
    (ha : a = a') (hb : b = b') : X a * W b = X a' * W b' := by rw [ha, hb]

theorem hz : (![0, 0] : Fin 2 → Nat) = fun _ => 0 := funext fun a => by fin_cases a <;> rfl

/-- The index maps over the ten grid points: point t takes row block t of the left array and of the output,
    column block 0 of both, and the one block of the right array. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the product of the two arrays as the region finds them:
    row r of block t is row 10000 t + r of the left array, and the right array has one block. -/
theorem flushed_eq (c : Dev nD) (t : Fin cfg0.N) :
    (Gen.dat0 (F := Ideal) V c).flushed 2 t
      = ((cfg0.win 2).blk t).view.read (Elt Ideal) (prod (V c (Pipeline.arrRef spec0 0)) (V c (Pipeline.arrRef spec0 1))) := by
  show (cfg0.win 2).cut (grid0.coords t) ((Gen.dat0 V c).after 2 t) = _
  rw [Gen.after0_2]
  unfold Gen.out0_2
  rw [View.canon_unit_zero hz]
  simp only [View.ld_unit_zero (S := S10000x64) hz, View.ld_unit_zero (S := S64x64) hz]
  obtain ⟨e0, e1, e2, e3, e4, e5⟩ := idx_facts t
  funext j
  show Gen.k0_pay1 (F := Ideal) (Gen.iblk0 V c 0 t) (Gen.iblk0 V c 1 t) j
      = prod (V c (Pipeline.arrRef spec0 0)) (V c (Pipeline.arrRef spec0 1)) (((cfg0.win 2).blk t).view.emb j)
  refine (pay_apply_idx (Gen.iblk0 V c 0 t) (Gen.iblk0 V c 1 t) j).trans ?_
  refine Finset.sum_congr rfl fun k _ => ?_
  have hj0 : (j 0).val < 10000 := (j 0).isLt
  have hj1 : (j 1).val < 64 := (j 1).isLt
  have h0 : ((cfg0.win 0).blk t).view.emb (ix2 (n0 := 10000) (j 0) k)
      = ix2 (n0 := 100000) ((((cfg0.win 2).blk t).view.emb j) 0) k := by
    funext a; apply Fin.ext
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 64 + 1 * k.val = k.val
      omega
  have h1 : ((cfg0.win 1).blk t).view.emb (ix2 k (n1 := 64) (j 1))
      = ix2 k (n1 := 64) ((((cfg0.win 2).blk t).view.emb j) 1) := by
    funext a; apply Fin.ext
    match a with
    | ⟨0, _⟩ =>
      show win0_1.index t (0 : Fin 2) * 64 + 1 * k.val = k.val
      omega
    | ⟨1, _⟩ =>
      show win0_1.index t (1 : Fin 2) * 64 + 1 * (j 1).val = win0_2.index t (1 : Fin 2) * 64 + 1 * (j 1).val
      omega
  exact mul_congr_idx (V c (Pipeline.arrRef spec0 0)) (V c (Pipeline.arrRef spec0 1)) _ _ _ _ h0 h1

/-- An index of the output array lies in grid point t's block exactly when each coordinate lies in the block's
    range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v31).slice (win0_2.rect t)).set ↔ _
  rw [View.set_slice_whole, Rect.mem_set_unit]
  exact Iff.rfl

/-- The ten blocks tile the output array: row p lies in the block of grid point p / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := Gen.N_0
  have ht : (i 0).val / 10000 < grid0.N := by rw [hN]; omega
  obtain ⟨e0, e1, e2, e3, e4, e5⟩ := idx_facts ⟨(i 0).val / 10000, ht⟩
  have e4' : win0_2.index ⟨(i 0).val / 10000, ht⟩ (0 : Fin 2) = (i 0).val / 10000 := e4
  refine ⟨⟨(i 0).val / 10000, ht⟩, Gen.flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    omega

/-- The output array after the last grid point is the product of the two arrays as the region finds them. -/
theorem arr_eq (c : Dev nD) :
    (Gen.dat0 (F := Ideal) V c).arrAt 2 cfg0.N = prod (V c (Pipeline.arrRef spec0 0)) (V c (Pipeline.arrRef spec0 1)) :=
  (Gen.dat0 (F := Ideal) V c).arrAt_eq_of_cover 2 _ (fun t _ => flushed_eq V c t) cover

/-- The left array as the region finds it, typed as a 100000 x 64 array of extended reals. -/
abbrev lhsArr (c : Dev nD) : S100000x64.Idx → EReal := V c (Pipeline.arrRef spec0 0)

/-- The right array as the region finds it, typed as a 64 x 64 array of extended reals. -/
abbrev rhsArr (c : Dev nD) : S64x64.Idx → EReal := V c (Pipeline.arrRef spec0 1)

/-- The product at an entry named by its two coordinates. -/
theorem prod_apply (X : S100000x64.Idx → EReal) (W : S64x64.Idx → EReal) (p : Fin 100000) (q : Fin 64) :
    prod X W (ix2 p q) = ∑ k : Fin 64, X (ix2 p k) * W (ix2 k q) := rfl

/-- Entry (p, q) of the output array after the last grid point is that entry of the product of the two arrays
    as the region finds them. -/
theorem arr_apply_prod (c : Dev nD) (p : Fin 100000) (q : Fin 64) :
    (Gen.dat0 (F := Ideal) V c).arrAt 2 cfg0.N (ix2 p q)
      = prod (V c (Pipeline.arrRef spec0 0)) (V c (Pipeline.arrRef spec0 1)) (ix2 p q) :=
  congrFun (arr_eq V c) (ix2 p q)

/-- Entry (p, q) of the output array after the last grid point is the sum over the 64 contracted positions of
    the products of row p of the left array with column q of the right array, both as the region finds them. -/
theorem arr_apply (c : Dev nD) (p : Fin 100000) (q : Fin 64) :
    (Gen.dat0 (F := Ideal) V c).arrAt 2 cfg0.N (ix2 p q)
      = (∑ k : Fin 64, lhsArr V c (ix2 p k) * rhsArr V c (ix2 k q) : EReal) :=
  arr_apply_prod V c p q

end Cert.KernelIdeal.MatmulRegion

end
-- ==== Proof.MatmulRef.lean ====
import proofs.«162372_j88785563943645_1_alg».proof.ReferenceIdeal
import Idealize.ShloMosaic.Lib.ValueIdx
import Idealize.ShloMosaic.PureOps.Ideal.Laws

noncomputable section

namespace Cert.ReferenceIdeal.MatmulRef

open Cert.ReferenceIdeal Idealize.ShloMosaic
open Idealize.ShloMosaic.ValueIdx
open scoped BigOperators

variable [Cert.ReferenceIdeal.Facts₀]

/-- The record of the whole-array product: it contracts axis 1 of the 100000 x 64 array with axis 0 of the
    64 x 64 array. -/
abbrev wholeDot : DotDims S100000x64 S64x64 S100000x64 := dot_S100000x64_S64x64_S100000x64_1_0_0_1_n_n

/-- Entry (p, q) of the reference's product of a 100000 x 64 array by a 64 x 64 array is the sum over the 64
    contracted positions of the products of row p of the first with column q of the second. -/
theorem dot_apply (x : FVec Ideal S100000x64 .f32) (W : FVec Ideal S64x64 .f32) (p : Fin 100000) (q : Fin 64) :
    Host.dotGeneral (F := Ideal) dot_S100000x64_S64x64_S100000x64_1_0_0_1_n_n none x W (ix2 p q)
      = ∑ k : Fin 64, x (ix2 p k) * W (ix2 k q) := by
  show FloatOps.dotGeneral wholeDot none _ x W (ix2 p q) = _
  rw [Ideal.dotGeneral_apply, ← Equiv.sum_comp (contrEquiv1 wholeDot 64 rfl rfl).symm]
  refine Finset.sum_congr rfl fun k _ => ?_
  have hk := contrEquiv1_symm_val wholeDot 64 rfl rfl k
  have el : wholeDot.lhsIdx (ix2 p q) ((contrEquiv1 wholeDot 64 rfl rfl).symm k) = ix2 p k :=
    funext fun a => Fin.ext (by
      match a with
      | ⟨0, _⟩ =>
        show (wholeDot.lhsIdx (ix2 p q) _ (0 : Fin S100000x64.rank)).val = p.val
        unfold DotDims.lhsIdx
        rw [dif_neg (show ¬(0 : Fin S100000x64.rank) ∈ wholeDot.lhsBatch from List.not_mem_nil),
          dif_pos (show (0 : Fin S100000x64.rank) ∈ wholeDot.lhsNonContracting from List.mem_singleton.mpr rfl)]
        rfl
      | ⟨1, _⟩ => exact (wholeDot.lhsIdx_val_of_single rfl (ix2 p q) _).trans hk)
  have er : wholeDot.rhsIdx (ix2 p q) ((contrEquiv1 wholeDot 64 rfl rfl).symm k) = ix2 k q :=
    funext fun a => Fin.ext (by
      match a with
      | ⟨0, _⟩ => exact (wholeDot.rhsIdx_val_of_single rfl (ix2 p q) _).trans hk
      | ⟨1, _⟩ =>
        show (wholeDot.rhsIdx (ix2 p q) _ (1 : Fin S64x64.rank)).val = q.val
        unfold DotDims.rhsIdx
        rw [dif_neg (show ¬(1 : Fin S64x64.rank) ∈ wholeDot.rhsBatch from List.not_mem_nil),
          dif_pos (show (1 : Fin S64x64.rank) ∈ wholeDot.rhsNonContracting from List.mem_singleton.mpr rfl)]
        rfl)
  rw [el, er]

end Cert.ReferenceIdeal.MatmulRef

end
-- ==== Proof.BnSpec.lean ====
/-
  The mathematics both programs compute after the aggregation, as plain functions on the extended reals.

  For an array `a` of 100000 rows and 64 columns, column `q` has the sum `colSum a q`, the sum of squares
  `colSumSq a q` and the mean `mean a q = colSum a q / 100000`. One program forms the variance from the two moments,
  `E[a²] − (E[a])²`; the other from the centred squares, `E[(a − E[a])²]`. Entry `(p, q)` of the result is
  `max ((a p q − mean) · (var + ε)^(−1/2) · γ q + β q) 0`. The two variances agree whenever every entry of the column
  is a real number (`IsFin`); they need not at an infinity.
-/
import Idealize.ShloMosaic.PureOps.Ideal
import Idealize.ShloMosaic.Lib.ValueIdx

noncomputable section

namespace Cert.BnSpec

open Idealize.ShloMosaic Idealize.ShloMosaic.ValueIdx

/-- An extended real that is a real number: neither infinity. -/
def IsFin (x : EReal) : Prop := ∃ r : ℝ, x = (r : EReal)

/-- The number of rows, 100000, as an extended real. -/
def nRows : EReal := ((100000 : ℝ) : EReal)

/-- The ε added to the variance: the value of the binary32 word both programs carry. -/
def eps : EReal := Ideal.ofBits .f32 0x3727C5AC#32

/-- The sum of column `q`. -/
def colSum (a : (⟨2, ![100000, 64]⟩ : Shape).Idx → EReal) (q : Fin 64) : EReal :=
  ∑ p : Fin 100000, a (ix2 p q)

/-- The sum of the squares of column `q`. -/
def colSumSq (a : (⟨2, ![100000, 64]⟩ : Shape).Idx → EReal) (q : Fin 64) : EReal :=
  ∑ p : Fin 100000, a (ix2 p q) * a (ix2 p q)

/-- The mean of column `q`: its sum divided by the number of rows. -/
def mean (a : (⟨2, ![100000, 64]⟩ : Shape).Idx → EReal) (q : Fin 64) : EReal :=
  Ideal.div (colSum a q) nRows

/-- The variance of column `q` from its two moments: `E[a²] − (E[a])²`. -/
def varMoments (a : (⟨2, ![100000, 64]⟩ : Shape).Idx → EReal) (q : Fin 64) : EReal :=
  Ideal.div (colSumSq a q) nRows - mean a q * mean a q

/-- The variance of column `q` from the centred squares: `E[(a − E[a])²]`. -/
def varCentered (a : (⟨2, ![100000, 64]⟩ : Shape).Idx → EReal) (q : Fin 64) : EReal :=
  Ideal.div (∑ p : Fin 100000, (a (ix2 p q) - mean a q) * (a (ix2 p q) - mean a q)) nRows

/-- Entry `(p, q)` of the normalised, scaled, shifted and clamped array, for a variance `v` per column. -/
def bn (a : (⟨2, ![100000, 64]⟩ : Shape).Idx → EReal) (v γ β : Fin 64 → EReal) (p : Fin 100000) (q : Fin 64) : EReal :=
  max ((a (ix2 p q) - mean a q) * Ideal.rsqrt (v q + eps) * γ q + β q) 0

end Cert.BnSpec

end
-- ==== Proof.KHost2.lean ====
/-
  The host operations between the statistics and the normalisation, read at an entry.

  The binary32 word 0x47C35000 is the real number 100000: its exponent field is 143 and its fraction field 4411392, so
  it denotes (2^23 + 4411392) · 2^(143 − 127 − 23) = 12800000 / 128 = 100000. With s1 the row of column sums and s2
  the row of column sums of squares, the mean of column q is s1(q) / 100000 and the variance from the two moments is
  s2(q) / 100000 − (s1(q) / 100000)². A vector of 64 entries recast as one row of 64 reads, at (0, q), entry q.
-/
import proofs.«162372_j88785563943645_1_alg».proof.KernelIdeal
import proofs.«162372_j88785563943645_1_alg».proof.Proof.BnSpec
import Idealize.ShloMosaic.PureOps.Ideal.Laws
import Idealize.ShloMosaic.Lib.ValueLayout

noncomputable section

namespace Cert.KernelIdeal.KHost2

open Idealize.ShloMosaic Idealize.ShloMosaic.ValueIdx
open Cert.KernelIdeal.Facts₀ Cert.KernelIdeal.Facts

variable [Cert.KernelIdeal.Facts]

/-- The row of 64 copies of the constant 100000. -/
local notation "N0" =>
  (broadcastInDim S1x64 ![] bcast_S_S1x64 (constant (F := Ideal) S_ FTy.f32 0x47C35000#32) : FVec Ideal S1x64 FTy.f32)

/-- The binary32 word 0x47C35000 denotes the real number 100000. -/
theorem n_word : Ideal.ofBits .f32 0x47C35000#32 = Cert.BnSpec.nRows := by
  unfold Cert.BnSpec.nRows
  simp [Ideal.ofBits, Ideal.ieee, -EReal.coe_mul]
  norm_num

/-- The binary32 word 0x00000000 denotes 0. -/
theorem zero_word : Ideal.ofBits .f32 0x00000000#32 = 0 := Ideal.ofBits_zero_f32

/-- Every entry of the row of constants is 100000. -/
theorem N0_apply (j : S1x64.Idx) : N0 j = Cert.BnSpec.nRows := by
  show Ideal.ofBits .f32 0x47C35000#32 = Cert.BnSpec.nRows
  exact n_word

/-- The quotient of two rows, read at an entry. -/
theorem hostDivf_apply {s : Shape} {φ : FTy} (x y : FVec Ideal s φ) (i : s.Idx) :
    Host.divf (F := Ideal) x y i = Ideal.div (x i) (y i) := rfl

/-- The mean of column q: the column sum over 100000. -/
theorem mean_apply (s1 : FVec Ideal S1x64 .f32) (q : Fin 64) :
    Host.divf (F := Ideal) s1 N0 (ix2 0 q) = Ideal.div (s1 (ix2 0 q)) Cert.BnSpec.nRows := by
  rw [hostDivf_apply, N0_apply]

/-- The variance of column q from the two moments: E[a²] − (E[a])². -/
theorem var_apply (s1 s2 : FVec Ideal S1x64 .f32) (q : Fin 64) :
    subf (F := Ideal) (Host.divf (F := Ideal) s2 N0)
        (mulf (F := Ideal) (Host.divf (F := Ideal) s1 N0) (Host.divf (F := Ideal) s1 N0)) (ix2 0 q)
      = Ideal.div (s2 (ix2 0 q)) Cert.BnSpec.nRows
          - Ideal.div (s1 (ix2 0 q)) Cert.BnSpec.nRows * Ideal.div (s1 (ix2 0 q)) Cert.BnSpec.nRows := by
  rw [subf_apply, mulf_apply, mean_apply, mean_apply]

/-- A vector of 64 entries recast as one row of 64 reads, at (0, q), the vector's entry q. -/
theorem row_apply (g : FVec Ideal S64 .f32) (q : Fin 64) :
    shapeCast S1x64 g shapeCasts_S64_S1x64 (ix2 0 q) = g (ix1 q) :=
  shapeCast_a_1a_apply g shapeCasts_S64_S1x64 0 q

end Cert.KernelIdeal.KHost2

end
-- ==== Proof.KBn.lean ====
/-
  The last region's whole-array function, fed the host's mean and variance rows, is the normalisation of the
  specification.

  The host forms, from the row s1 of column sums and the row s2 of column sums of squares, the mean s1 / 100000 and
  the variance s2 / 100000 - (s1 / 100000)^2, and recasts the scale and shift vectors as rows. The region reads each
  of the four rows at the entry's column. When s1 and s2 are the column sums and the column sums of squares of the
  array a, the mean read is the column's mean and the variance read is the column's variance from its two moments,
  so the entry is max ((a p q - mean) (var + eps)^(-1/2) scale q + shift q) 0 with those. Only definitions are
  unfolded: no law of arithmetic is used, so no entry needs to be finite.
-/
import proofs.«162372_j88785563943645_1_alg».proof.Proof.BnRegion
import proofs.«162372_j88785563943645_1_alg».proof.Proof.BnSpec
import proofs.«162372_j88785563943645_1_alg».proof.Proof.KHost2
import Idealize.ShloMosaic.PureOps.Ideal.Laws
import Idealize.ShloMosaic.Lib.ValueLayout

noncomputable section

namespace Cert.KernelIdeal.KBn

open Idealize.ShloMosaic Idealize.ShloMosaic.ValueIdx
open Cert.KernelIdeal.Facts₀ Cert.KernelIdeal.Facts
open scoped BigOperators

variable [Cert.KernelIdeal.Facts]

/-- The row of 64 copies of the number of rows, 100000. -/
local notation "N0" =>
  (broadcastInDim S1x64 ![] bcast_S_S1x64 (constant (F := Ideal) S_ FTy.f32 0x47C35000#32) : FVec Ideal S1x64 FTy.f32)

/-- With s1 the row of column sums and s2 the row of column sums of squares of the array a, the last region's
    whole-array function, fed the mean s1 / 100000, the variance s2 / 100000 - (s1 / 100000)^2 and the scale and
    shift vectors recast as rows, is at entry (p, q) the normalised, scaled, shifted and clamped entry with the
    variance taken from the two moments: each row vector is read at column q, where the mean is the column's mean
    and the variance the column's second moment minus the square of its mean. -/
theorem G_eq_bn (a : FVec Ideal S100000x64 .f32) (s1 s2 : FVec Ideal S1x64 .f32) (γ β : FVec Ideal S64 .f32)
    (h1 : ∀ q : Fin 64, s1 (ix2 0 q) = ∑ p : Fin 100000, a (ix2 p q))
    (h2 : ∀ q : Fin 64, s2 (ix2 0 q) = ∑ p : Fin 100000, a (ix2 p q) * a (ix2 p q))
    (p : Fin 100000) (q : Fin 64) :
    Cert.KernelIdeal.BnRegion.G a (Host.divf (F := Ideal) s1 N0)
        (subf (F := Ideal) (Host.divf (F := Ideal) s2 N0)
          (mulf (F := Ideal) (Host.divf (F := Ideal) s1 N0) (Host.divf (F := Ideal) s1 N0)))
        (shapeCast S1x64 γ shapeCasts_S64_S1x64) (shapeCast S1x64 β shapeCasts_S64_S1x64) (ix2 p q)
      = Cert.BnSpec.bn a (Cert.BnSpec.varMoments a) (fun q => γ (ix1 q)) (fun q => β (ix1 q)) p q := by
  show max ((a (ix2 p q) - Host.divf (F := Ideal) s1 N0 (ix2 0 q))
        * Ideal.rsqrt (subf (F := Ideal) (Host.divf (F := Ideal) s2 N0)
            (mulf (F := Ideal) (Host.divf (F := Ideal) s1 N0) (Host.divf (F := Ideal) s1 N0)) (ix2 0 q)
          + Ideal.ofBits .f32 0x3727C5AC#32)
        * shapeCast S1x64 γ shapeCasts_S64_S1x64 (ix2 0 q) + shapeCast S1x64 β shapeCasts_S64_S1x64 (ix2 0 q))
      (Ideal.ofBits .f32 0x00000000#32) = _
  rw [KHost2.mean_apply, KHost2.var_apply, KHost2.row_apply, KHost2.row_apply, KHost2.zero_word, h1, h2]
  rfl

end Cert.KernelIdeal.KBn

end
-- ==== Proof.RefTerm.lean ====
/-
  The reference's value as pure functions of its arguments, one definition per stage of the mathematics.

  A graph on 100000 nodes is given by 1600000 directed edges (row 0 of the edge table the sources, row 1 the
  targets); every node also gets a loop edge, which makes 1700000 edges. With d(v) the number of edges that
  end at v and w(s → t) = d(s)^(-1/2) · 1 · d(t)^(-1/2), one layer computes h = x · W, then
  a(t, ·) = Σ_{s → t} w(s → t) · h(s, ·) + b, then normalises every column of a by its mean and its centred
  variance, scales by γ, shifts by β and clamps below at 0.
-/
import proofs.«162372_j88785563943645_1_alg».proof.ReferenceIdeal
import Idealize.ShloMosaic.PureOps.Ideal

noncomputable section

namespace Cert.ReferenceIdeal.Term

open Idealize.ShloMosaic
open Cert.ReferenceIdeal.Facts₀ Cert.ReferenceIdeal.Facts

variable [Facts]

/-! ## The edge lists -/

/-- The node numbers 0, 1, …, 99999: the loop edges' ends. -/
def nodes : IVec S100000 32 := iotaInDim S100000 32 0

/-- The sources of the 1700000 edges: row 0 of the edge table, then every node once. -/
def src (e : IVec S2x1600000 32) : IVec S1700000 32 :=
  concatenate S1700000 0
    [⟨S1600000, shapeCast S1600000 (extractStridedSlice S1x1600000 ![0, 0] e slices_S2x1600000_S1x1600000_0_0) shapeCasts_S1x1600000_S1600000⟩,
     ⟨S100000, nodes⟩] concatenates_S1600000_S100000_S1700000_d0

/-- The targets of the 1700000 edges: row 1 of the edge table, then every node once. -/
def dst (e : IVec S2x1600000 32) : IVec S1700000 32 :=
  concatenate S1700000 0
    [⟨S1600000, shapeCast S1600000 (extractStridedSlice S1x1600000 ![1, 0] e slices_S2x1600000_S1x1600000_1_0) shapeCasts_S1x1600000_S1600000⟩,
     ⟨S100000, nodes⟩] concatenates_S1600000_S100000_S1700000_d0

/-- An index list with every negative entry moved up by 100000 (an index counted from the end). -/
def wrap (i : IVec S1700000 32) : IVec S1700000 32 :=
  select (cmpi .slt i (broadcastInDim S1700000 ![] bcast_S_S1700000 (constantI S_ 32 0#32)))
    (addi i (broadcastInDim S1700000 ![] bcast_S_S1700000 (constantI S_ 32 100000#32))) i

/-- An index list as a one-column table of start indices. -/
def col (i : IVec S1700000 32) : IVec S1700000x1 32 :=
  broadcastInDim S1700000x1 ![0] bcast_S1700000_S1700000x1_0 i

/-! ## The edge weights -/

/-- The weight 1 on every edge. -/
def ones : FVec Ideal S1700000 .f32 :=
  broadcastInDim S1700000 ![] bcast_S_S1700000 (constant (F := Ideal) S_ .f32 0x3F800000#32)

/-- The degree d(v): the sum of the weight 1 over the edges that end at v. -/
def deg (e : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32)) (col (dst e)) ones

/-- d(v)^(-1/2) where d(v) > 0, and 0 elsewhere. -/
def dinv (e : IVec S2x1600000 32) : FVec Ideal S100000 .f32 :=
  select (cmpf (F := Ideal) .ogt (deg e) (broadcastInDim S100000 ![] bcast_S_S100000 (constant (F := Ideal) S_ .f32 0x00000000#32)))
    (Host.rsqrt (F := Ideal) (deg e))
    (broadcastInDim S100000 ![] bcast_S_S100000 (id (constant (F := Ideal) S_ .f32 0x00000000#32)))

/-- The edge weights w(s → t) = d(s)^(-1/2) · 1 · d(t)^(-1/2). -/
def norm (e : IVec S2x1600000 32) : FVec Ideal S1700000 .f32 :=
  mulf (F := Ideal)
    (mulf (F := Ideal) (Host.gather gather_S100000_S1700000x1_S1700000_n_0_n_n_0_1_1 (dinv e) (col (wrap (src e)))) ones)
    (Host.gather gather_S100000_S1700000x1_S1700000_n_0_n_n_0_1_1 (dinv e) (col (wrap (dst e))))

/-! ## The linear map -/

/-- h = x · W: row p, column q is the sum over k of x(p, k) · W(k, q). -/
def lin (x : FVec Ideal S100000x64 .f32) (W : FVec Ideal S64x64 .f32) : FVec Ideal S100000x64 .f32 :=
  Host.dotGeneral (F := Ideal) dot_S100000x64_S64x64_S100000x64_1_0_0_1_n_n none x W

/-! ## The aggregation -/

/-- a(t, ·) = Σ over the edges s → t of w(s → t) · h(s, ·), plus the bias b. -/
def agg (h : FVec Ideal S100000x64 .f32) (e : IVec S2x1600000 32) (b : FVec Ideal S64 .f32) : FVec Ideal S100000x64 .f32 :=
  addf (F := Ideal)
    (Host.scatterAdd (F := Ideal) scatter_S100000x64_S1700000x1_S1700000x64_1_0_0_1
      (broadcastInDim S100000x64 ![] bcast_S_S100000x64 (constant (F := Ideal) S_ .f32 0x00000000#32))
      (col (dst e))
      (mulf (F := Ideal)
        (Host.gather gather_S100000x64_S1700000x1_S1700000x64_1_0_n_n_0_1_164 h (col (wrap (src e))))
        (broadcastInDim S1700000x64 ![0, 1] bcast_S1700000x1_S1700000x64_0_1
          (broadcastInDim S1700000x1 ![0] bcast_S1700000_S1700000x1_0 (norm e)))))
    (broadcastInDim S100000x64 ![0, 1] bcast_S1x64_S100000x64_0_1 (broadcastInDim S1x64 ![1] bcast_S64_S1x64_1 b))

/-! ## The normalisation -/

/-- A vector of 64 columns repeated on every one of the 100000 rows. -/
def rows (v : FVec Ideal S64 .f32) : FVec Ideal S100000x64 .f32 :=
  broadcastInDim S100000x64 ![0, 1] bcast_S1x64_S100000x64_0_1 (broadcastInDim S1x64 ![1] bcast_S64_S1x64_1 v)

/-- The column sums, from the initial value 0. -/
def colSum (a : FVec Ideal S100000x64 .f32) : FVec Ideal S64 .f32 :=
  Host.reduceAdd (F := Ideal) a (constant (F := Ideal) S_ .f32 0x00000000#32) reducesTo_S100000x64_S64_d0 h_S_

/-- The column means: the column sums divided by 100000. -/
def mean (a : FVec Ideal S100000x64 .f32) : FVec Ideal S64 .f32 :=
  Host.divf (F := Ideal) (colSum a) (broadcastInDim S64 ![] bcast_S_S64 (constant (F := Ideal) S_ .f32 0x47C35000#32))

/-- The deviations from the column means, the means formed on one row and divided by 100000 there. -/
def centred (a : FVec Ideal S100000x64 .f32) : FVec Ideal S100000x64 .f32 :=
  subf (F := Ideal) a
    (broadcastInDim S100000x64 ![0, 1] bcast_S1x64_S100000x64_0_1
      (Host.divf (F := Ideal) (broadcastInDim S1x64 ![1] bcast_S64_S1x64_1 (colSum a))
        (broadcastInDim S1x64 ![] bcast_S_S1x64 (constant (F := Ideal) S_ .f32 0x47C35000#32))))

/-- The divisor of the variance: 100000 minus the correction 0. -/
def divisor : FVec Ideal S_ .f32 :=
  subf (F := Ideal) (constant (F := Ideal) S_ .f32 0x47C35000#32) (sitofp (F := Ideal) .f32 (constantI S_ 32 0#32))

/-- The centred variance of every column: the sum of the squared deviations over the divisor where the divisor is
    positive, and the not-a-number word elsewhere. -/
def var (a : FVec Ideal S100000x64 .f32) : FVec Ideal S64 .f32 :=
  select (broadcastInDim S64 ![] bcast_S_S64 (cmpf (F := Ideal) .ogt divisor (constant (F := Ideal) S_ .f32 0x00000000#32)))
    (Host.divf (F := Ideal)
      (Host.reduceAdd (F := Ideal) (mulf (F := Ideal) (centred a) (centred a)) (constant (F := Ideal) S_ .f32 0x00000000#32)
        reducesTo_S100000x64_S64_d0 h_S_)
      (broadcastInDim S64 ![] bcast_S_S64 divisor))
    (broadcastInDim S64 ![] bcast_S_S64 (id (constant (F := Ideal) S_ .f32 0x7FC00000#32)))

/-- Entry (p, q) is max ((a(p, q) − mean(q)) · (var(q) + ε)^(-1/2) · γ(q) + β(q), 0). -/
def out (a : FVec Ideal S100000x64 .f32) (γ β : FVec Ideal S64 .f32) : FVec Ideal S100000x64 .f32 :=
  maximumf (F := Ideal)
    (addf (F := Ideal)
      (mulf (F := Ideal)
        (mulf (F := Ideal) (subf (F := Ideal) a (rows (mean a)))
          (rows (Host.rsqrt (F := Ideal)
            (addf (F := Ideal) (var a) (broadcastInDim S64 ![] bcast_S_S64 (constant (F := Ideal) S_ .f32 0x3727C5AC#32))))))
        (rows γ))
      (rows β))
    (broadcastInDim S100000x64 ![] bcast_S_S100000x64 (constant (F := Ideal) S_ .f32 0x00000000#32))

end Cert.ReferenceIdeal.Term

end
-- ==== Proof.AggBridge.lean ====
/-
  The aggregation written over the kernel program's constants is the reference's aggregation.

  The two programs name the same shapes, the same gather and scatter dimension numbers and the same side
  conditions; a side condition is a proposition, so any two proofs of it are equal. Hence each stage of the
  aggregation — the edge lists, the wrapped indices, the degrees, the reciprocal square roots of the degrees, the edge
  weights, the aggregation itself — is the same function in both, stage by stage.
-/
import proofs.«162372_j88785563943645_1_alg».proof.Proof.KTerm
import proofs.«162372_j88785563943645_1_alg».proof.Proof.RefTerm

noncomputable section

namespace Cert.KernelIdeal.KTerm

open Idealize.ShloMosaic

variable [Cert.KernelIdeal.Facts] [Cert.ReferenceIdeal.Facts]

/-! ### The dimension records: the same fields in both programs -/

theorem scatter1_eq :
    Cert.KernelIdeal.scatter_S100000_S1700000x1_S1700000_n_0_0_1
      = Cert.ReferenceIdeal.scatter_S100000_S1700000x1_S1700000_n_0_0_1 := rfl

theorem scatter2_eq :
    Cert.KernelIdeal.scatter_S100000x64_S1700000x1_S1700000x64_1_0_0_1
      = Cert.ReferenceIdeal.scatter_S100000x64_S1700000x1_S1700000x64_1_0_0_1 := rfl

theorem gather1_eq :
    Cert.KernelIdeal.gather_S100000_S1700000x1_S1700000_n_0_n_n_0_1_1
      = Cert.ReferenceIdeal.gather_S100000_S1700000x1_S1700000_n_0_n_n_0_1_1 := rfl

theorem gather2_eq :
    Cert.KernelIdeal.gather_S100000x64_S1700000x1_S1700000x64_1_0_n_n_0_1_164
      = Cert.ReferenceIdeal.gather_S100000x64_S1700000x1_S1700000x64_1_0_n_n_0_1_164 := rfl

/-! ### Stage by stage -/

theorem nodes_eq : nodes = Cert.ReferenceIdeal.Term.nodes := rfl

theorem src_eq (e : IVec Cert.KernelIdeal.S2x1600000 32) : src e = Cert.ReferenceIdeal.Term.src e := rfl

theorem dst_eq (e : IVec Cert.KernelIdeal.S2x1600000 32) : dst e = Cert.ReferenceIdeal.Term.dst e := rfl

theorem wrap_eq (i : IVec Cert.KernelIdeal.S1700000 32) : wrap i = Cert.ReferenceIdeal.Term.wrap i := rfl

theorem col_eq (i : IVec Cert.KernelIdeal.S1700000 32) : col i = Cert.ReferenceIdeal.Term.col i := rfl

theorem ones_eq : ones = Cert.ReferenceIdeal.Term.ones := rfl

/-- The degrees: the same scatter of the same ones along the same targets onto the same zeros. -/
theorem deg_eq (e : IVec Cert.KernelIdeal.S2x1600000 32) : deg e = Cert.ReferenceIdeal.Term.deg e := by
  unfold deg Cert.ReferenceIdeal.Term.deg
  rw [dst_eq, col_eq, ones_eq, scatter1_eq]

/-- d(v)^(-1/2) where d(v) > 0, and 0 elsewhere: the same select over equal degrees. -/
theorem dinv_eq (e : IVec Cert.KernelIdeal.S2x1600000 32) : dinv e = Cert.ReferenceIdeal.Term.dinv e := by
  unfold dinv Cert.ReferenceIdeal.Term.dinv
  rw [deg_eq]

/-- The edge weights: the same products of the same gathered values. -/
theorem norm_eq (e : IVec Cert.KernelIdeal.S2x1600000 32) : norm e = Cert.ReferenceIdeal.Term.norm e := by
  unfold norm Cert.ReferenceIdeal.Term.norm
  rw [dinv_eq, src_eq, dst_eq, wrap_eq, wrap_eq, col_eq, col_eq, ones_eq, gather1_eq]

/-- The aggregation over the kernel program's constants is the reference's. -/
theorem agg_eq (h : FVec Ideal Cert.KernelIdeal.S100000x64 .f32) (e : IVec Cert.KernelIdeal.S2x1600000 32)
    (b : FVec Ideal Cert.KernelIdeal.S64 .f32) : agg h e b = Cert.ReferenceIdeal.Term.agg h e b := by
  unfold agg Cert.ReferenceIdeal.Term.agg
  rw [norm_eq, src_eq, dst_eq, wrap_eq, col_eq, col_eq, scatter2_eq, gather2_eq]

end Cert.KernelIdeal.KTerm

end
-- ==== Proof.RefRead.lean ====
/-
  The last stage read at an entry.

  Entry (p, q) of the normalised array is max ((a(p, q) − mean(q)) · (var(q) + ε)^(-1/2) · γ(q) + β(q), 0), with
  mean(q) the sum of column q divided by 100000 and var(q) the sum over the column of the squared deviations from
  the mean, divided by 100000. The host sums start from the word of 0, which is the real 0; the divisor is the word
  of 100000 minus the integer 0 read as a real, which is 100000 and positive, so the quotient is selected and never
  the not-a-number word; a vector of 64 columns repeated on the rows reads, at (p, q), its entry q.
-/
import proofs.«162372_j88785563943645_1_alg».proof.Proof.RefTerm
import proofs.«162372_j88785563943645_1_alg».proof.Proof.BnSpec
import Idealize.ShloMosaic.PureOps.Ideal.Laws
import Idealize.ShloMosaic.Lib.IdealHost
import Idealize.ShloMosaic.Lib.ValueLayout
import Idealize.ShloMosaic.Lib.Pipeline.Value

noncomputable section

namespace Cert.ReferenceIdeal.Term

open Idealize.ShloMosaic Idealize.ShloMosaic.ValueIdx
open Cert.ReferenceIdeal.Facts₀ Cert.ReferenceIdeal.Facts

variable [Facts]

/-! ## The constants -/

/-- The word 0x47C35000 is 1.52587890625 · 2^16, the real 100000. -/
theorem ofBits_100000 : Ideal.ofBits .f32 0x47C35000#32 = Cert.BnSpec.nRows := by
  unfold Cert.BnSpec.nRows
  simp [Ideal.ofBits, Ideal.ieee, -EReal.coe_mul]; norm_num

/-- 100000 is not 0. -/
theorem nRows_pos : (0 : EReal) < Cert.BnSpec.nRows := by
  unfold Cert.BnSpec.nRows
  exact_mod_cast (by norm_num : (0 : ℝ) < 100000)

/-! ## A row vector repeated on the rows -/

/-- A vector of 64 columns repeated on every row reads, at (p, q), its entry q. -/
theorem rows_apply (v : FVec Ideal S64 .f32) (p : Fin 100000) (q : Fin 64) : rows v (ix2 p q) = v (ix1 q) := by
  unfold rows
  refine (broadcastInDim_apply ![0, 1] bcast_S1x64_S100000x64_0_1 _ (ix2 p q) (ix2 (0 : Fin 1) q) ?_).trans
    (broadcastInDim_apply ![1] bcast_S64_S1x64_1 v (ix2 (0 : Fin 1) q) (ix1 q) ?_)
  · intro a; match a with
    | ⟨0, _⟩ => rfl
    | ⟨1, _⟩ => rfl
  · intro a; match a with
    | ⟨0, _⟩ => rfl

/-! ## The column sums -/

/-- A host sum over the rows from the word of 0 is the sum of the column. -/
theorem reduce_apply (x : FVec Ideal S100000x64 .f32) (q : Fin 64) :
    Host.reduceAdd (F := Ideal) x (constant (F := Ideal) S_ .f32 0x00000000#32) reducesTo_S100000x64_S64_d0 h_S_ (ix1 q)
      = ∑ p : Fin 100000, x (ix2 p q) := by
  have h : S100000x64.Reduces [0] S64 := by decide
  refine (hostReduceAdd_apply x _ reducesTo_S100000x64_S64_d0 h_S_ (ix1 q)).trans ?_
  refine (Ideal.hostReduceAdd_single reducesTo_S100000x64_S64_d0 h x _ (ix1 q)).trans ?_
  rw [constant_apply, Ideal.ofBits_zero_f32, zero_add]
  refine Finset.sum_congr rfl fun k _ => congrArg x ?_
  funext c; match c with
  | ⟨0, _⟩ => exact Fin.ext rfl
  | ⟨1, _⟩ => exact Fin.ext rfl

theorem colSum_apply (a : FVec Ideal S100000x64 .f32) (q : Fin 64) : colSum a (ix1 q) = Cert.BnSpec.colSum a q := by
  unfold colSum Cert.BnSpec.colSum
  exact reduce_apply a q

/-- The column mean. -/
theorem mean_apply (a : FVec Ideal S100000x64 .f32) (q : Fin 64) : mean a (ix1 q) = Cert.BnSpec.mean a q := by
  unfold mean Cert.BnSpec.mean
  rw [hostDivf_apply, colSum_apply, broadcastInDim_scalar_apply, constant_apply, ofBits_100000]

/-! ## The centred variance -/

/-- The deviations from the column mean. -/
theorem centred_apply (a : FVec Ideal S100000x64 .f32) (p : Fin 100000) (q : Fin 64) :
    centred a (ix2 p q) = a (ix2 p q) - Cert.BnSpec.mean a q := by
  unfold centred Cert.BnSpec.mean
  rw [← colSum_apply a q, subf_apply]
  refine congrArg (a (ix2 p q) - ·) ?_
  refine (broadcastInDim_apply ![0, 1] bcast_S1x64_S100000x64_0_1 _ (ix2 p q) (ix2 (0 : Fin 1) q) ?_).trans ?_
  · intro c; match c with
    | ⟨0, _⟩ => rfl
    | ⟨1, _⟩ => rfl
  rw [hostDivf_apply, broadcastInDim_scalar_apply, constant_apply, ofBits_100000]
  refine congrArg (Ideal.div · Cert.BnSpec.nRows) ?_
  generalize colSum a = s
  exact broadcastInDim_apply ![1] bcast_S64_S1x64_1 s (ix2 (0 : Fin 1) q) (ix1 q) (fun c => match c with | ⟨0, _⟩ => rfl)

/-- The divisor 100000 − 0 is 100000. -/
theorem divisor_apply : divisor ix0 = Cert.BnSpec.nRows := by
  unfold divisor
  rw [subf_apply, constant_apply, ofBits_100000, sitofp_apply, constantI_apply]
  show Cert.BnSpec.nRows - (((0#32 : BitVec 32).toInt : ℝ) : EReal) = Cert.BnSpec.nRows
  have h0 : ((0#32 : BitVec 32).toInt : ℝ) = 0 := by norm_num
  rw [h0, EReal.coe_zero, sub_zero]

/-- The centred variance: the divisor is positive, so the quotient is selected. -/
theorem var_apply (a : FVec Ideal S100000x64 .f32) (q : Fin 64) : var a (ix1 q) = Cert.BnSpec.varCentered a q := by
  unfold var Cert.BnSpec.varCentered
  rw [select_apply, broadcastInDim_scalar_apply, cmpf_apply, divisor_apply, constant_apply, Ideal.ofBits_zero_f32]
  have hm : FloatOps.cmpf (F := Ideal) (φ := .f32) .ogt Cert.BnSpec.nRows 0 = 1#1 := by
    show BitVec.ofBool (decide ((0 : EReal) < Cert.BnSpec.nRows)) = 1#1
    rw [decide_eq_true nRows_pos]; rfl
  rw [hm, select_one, hostDivf_apply, broadcastInDim_scalar_apply, divisor_apply, reduce_apply]
  refine congrArg (Ideal.div · Cert.BnSpec.nRows) (Finset.sum_congr rfl fun p _ => ?_)
  rw [mulf_apply, centred_apply]

/-! ## The result -/

/-- Entry (p, q) of the normalised, scaled, shifted and clamped array. -/
theorem out_apply (a : FVec Ideal S100000x64 .f32) (γ β : FVec Ideal S64 .f32) (p : Fin 100000) (q : Fin 64) :
    out a γ β (ix2 p q)
      = Cert.BnSpec.bn a (Cert.BnSpec.varCentered a) (fun q => γ (ix1 q)) (fun q => β (ix1 q)) p q := by
  unfold out Cert.BnSpec.bn Cert.BnSpec.eps
  rw [maximumf_apply, addf_apply, mulf_apply, mulf_apply, subf_apply, rows_apply, rows_apply, rows_apply, rows_apply,
    mean_apply, broadcastInDim_scalar_apply, constant_apply, Ideal.ofBits_zero_f32]
  show max ((a (ix2 p q) - Cert.BnSpec.mean a q)
      * FloatOps.hostUnary (F := Ideal) (φ := .f32) .rsqrt (addf (F := Ideal) (var a) _ (ix1 q)) * γ (ix1 q) + β (ix1 q)) 0 = _
  rw [Ideal.hostUnary_rsqrt_def, addf_apply, var_apply, broadcastInDim_scalar_apply, constant_apply]

end Cert.ReferenceIdeal.Term

end
-- ==== Proof.VarianceLaw.lean ====
/-
  The two ways of forming a column's variance agree on real entries.

  For a column of N = 100000 real numbers r, the variance from the two moments, (∑ r²)/N − ((∑ r)/N)², equals the
  variance from the centred squares, (∑ (r − (∑ r)/N)²)/N: expand the square, and use ∑ 1 = N. On the extended reals
  the same holds as soon as every entry of the column is a real number, because then every sum, product and
  difference that occurs is the image of the corresponding real one, and division by the nonzero real N is
  multiplication by the real 1/N.
-/
import proofs.«162372_j88785563943645_1_alg».proof.Proof.BnSpec

noncomputable section

namespace Cert.BnSpec.Law

open Idealize.ShloMosaic Idealize.ShloMosaic.ValueIdx

/-- The image in the extended reals of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals, for a finite family of N ≠ 0 members: E[r²] − (E[r])² = E[(r − E[r])²], with each division by N
    written as multiplication by 1/N. -/
theorem real_var {ι : Type*} [Fintype ι] (r : ι → ℝ) (N : ℝ) (hN : N = (Fintype.card ι : ℝ)) (hN0 : N ≠ 0) :
    (∑ i, r i * r i) * (1 / N) - ((∑ i, r i) * (1 / N)) * ((∑ i, r i) * (1 / N))
      = (∑ i, (r i - (∑ i, r i) * (1 / N)) * (r i - (∑ i, r i) * (1 / N))) * (1 / N) := by
  generalize hS : (∑ i, r i) = S
  have hexp : ∀ i, (r i - S * (1 / N)) * (r i - S * (1 / N))
      = r i * r i - 2 * (S * (1 / N)) * r i + (S * (1 / N)) * (S * (1 / N)) := by
    intro i; ring
  have hsum : (∑ i, (r i - S * (1 / N)) * (r i - S * (1 / N)))
      = (∑ i, r i * r i) - 2 * (S * (1 / N)) * S + N * ((S * (1 / N)) * (S * (1 / N))) := by
    rw [Finset.sum_congr rfl (fun i _ => hexp i), Finset.sum_add_distrib, Finset.sum_sub_distrib,
      ← Finset.mul_sum, hS, Finset.sum_const, Finset.card_univ, nsmul_eq_mul, ← hN]
  rw [hsum]
  field_simp
  ring

/-- The variance of a column from its two moments equals its variance from the centred squares, when every entry of
    the column is a real number. -/
theorem var_eq (a : (⟨2, ![100000, 64]⟩ : Shape).Idx → EReal) (q : Fin 64)
    (h : ∀ p : Fin 100000, Cert.BnSpec.IsFin (a (ix2 p q))) :
    Cert.BnSpec.varMoments a q = Cert.BnSpec.varCentered a q := by
  choose r hr using h
  have hN : (100000 : ℝ) ≠ 0 := by norm_num
  have hcard : (100000 : ℝ) = (Fintype.card (Fin 100000) : ℝ) := by
    rw [Fintype.card_fin]; norm_num
  unfold Cert.BnSpec.varMoments Cert.BnSpec.varCentered Cert.BnSpec.mean Cert.BnSpec.colSum Cert.BnSpec.colSumSq
    Cert.BnSpec.nRows
  simp only [hr]
  rw [Ideal.div_coe hN, Ideal.div_coe hN, Ideal.div_coe hN]
  simp only [← EReal.coe_mul, ← coe_finset_sum, ← EReal.coe_sub]
  exact congrArg _ (real_var r 100000 hcard hN)

end Cert.BnSpec.Law

end
-- ==== Proof.Finite.lean ====
/-
  Closure of "is a real number" under the operations of the aggregation.

  An extended real is finite (`IsFin`) when it is the image of a real. The reals are closed under 0, 1, sum,
  difference, product, negation, finite sums, division by a nonzero real, and maximum; the reciprocal square root of
  a positive real is a real. An array is finite when each of its entries is. The array operations of the aggregation
  keep that: a gather and a broadcast only pick entries of their operand; a product or sum of arrays is entrywise; a
  select picks, at each index, an entry of one of its two branches; a scatter with addition gives each operand entry
  plus a finite sum of update entries; a matrix product gives, at each index, zero plus a finite sum of products; the
  constants 0 and 1 are reals.
-/
import proofs.«162372_j88785563943645_1_alg».proof.Proof.BnSpec
import Idealize.ShloMosaic.PureOps.Ideal.Laws
import Idealize.ShloMosaic.Lib.IdealHost

noncomputable section

namespace Cert.BnSpec

open Idealize.ShloMosaic

/-! ### Scalars -/

theorem IsFin.coe (r : ℝ) : IsFin (r : EReal) := ⟨r, rfl⟩

theorem IsFin.zero : IsFin (0 : EReal) := ⟨0, EReal.coe_zero.symm⟩

theorem IsFin.one : IsFin (1 : EReal) := ⟨1, EReal.coe_one.symm⟩

theorem IsFin.ne_top {x : EReal} (hx : IsFin x) : x ≠ ⊤ := by
  obtain ⟨r, rfl⟩ := hx; exact EReal.coe_ne_top r

theorem IsFin.ne_bot {x : EReal} (hx : IsFin x) : x ≠ ⊥ := by
  obtain ⟨r, rfl⟩ := hx; exact EReal.coe_ne_bot r

/-- An extended real that is neither infinity is a real. -/
theorem IsFin.of_ne {x : EReal} (hb : x ≠ ⊥) (ht : x ≠ ⊤) : IsFin x := by
  induction x using EReal.rec with
  | bot => exact absurd rfl hb
  | top => exact absurd rfl ht
  | coe r => exact ⟨r, rfl⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.neg {x : EReal} (hx : IsFin x) : IsFin (-x) := by
  obtain ⟨a, rfl⟩ := hx; exact ⟨-a, (EReal.coe_neg a).symm⟩

/-- A finite sum of reals is a real. -/
theorem IsFin.sum {ι : Type*} (s : Finset ι) (f : ι → EReal) (h : ∀ i ∈ s, IsFin (f i)) :
    IsFin (∑ i ∈ s, f i) := by
  classical
  induction s using Finset.induction_on with
  | empty => rw [Finset.sum_empty]; exact IsFin.zero
  | insert a s ha ih =>
    rw [Finset.sum_insert ha]
    exact (h a (Finset.mem_insert_self a s)).add (ih fun i hi => h i (Finset.mem_insert_of_mem hi))

/-- Division by a nonzero real keeps a real a real. -/
theorem IsFin.div_coe {x : EReal} (hx : IsFin x) {y : ℝ} (hy : y ≠ 0) : IsFin (Ideal.div x (y : EReal)) := by
  rw [Ideal.div_coe hy]; exact hx.mul (IsFin.coe _)

theorem IsFin.max {x y : EReal} (hx : IsFin x) (hy : IsFin y) : IsFin (max x y) := by
  rcases max_choice x y with h | h
  · rw [h]; exact hx
  · rw [h]; exact hy

/-- The reciprocal square root of a positive real is a real. -/
theorem IsFin.rsqrt_pos {r : ℝ} (hr : 0 < r) : IsFin (Ideal.rsqrt (r : EReal)) := by
  rw [Ideal.rsqrt_coe, if_neg (not_lt.mpr hr.le), if_neg (ne_of_gt hr)]
  exact IsFin.coe _

/-- "The reciprocal square root where the argument is positive, zero elsewhere" is a real at every real argument:
    the reciprocal square root is taken only of a positive real. -/
theorem IsFin.select_gt_rsqrt {x : EReal} (hx : IsFin x) :
    IsFin (Scalar.select (Ideal.cmp .ogt x 0) (Ideal.rsqrt x) (0 : EReal)) := by
  obtain ⟨r, rfl⟩ := hx
  unfold Scalar.select Ideal.cmp
  by_cases h : (0 : EReal) < (r : EReal)
  · have hr : 0 < r := by exact_mod_cast h
    simp only [h, decide_true, BitVec.ofBool_true, if_true]
    exact IsFin.rsqrt_pos hr
  · simp only [h, decide_false, BitVec.ofBool_false]
    rw [if_neg (by decide)]
    exact IsFin.zero

/-! ### Arrays, entry by entry -/

/-- A gather picks entries of its operand. -/
theorem fin_gather {s si t : Shape} {w : Nat} (d : GatherDims s si t) (x : s.Idx → EReal) (idx : IVec si w)
    (hx : ∀ i, IsFin (x i)) : ∀ j, IsFin (Host.gather d x idx j) :=
  fun j => hx (d.operandIdx j idx)

/-- A broadcast picks entries of its operand. -/
theorem fin_broadcastInDim {s : Shape} (t : Shape) (dims : Fin s.rank → Fin t.rank) (h : s.BroadcastsInDim t dims)
    (x : s.Idx → EReal) (hx : ∀ i, IsFin (x i)) : ∀ j, IsFin (broadcastInDim t dims h x j) :=
  fun _ => hx _

/-- The entrywise product of two finite arrays is finite. -/
theorem fin_mulf {s : Shape} {φ : FTy} (x y : FVec Ideal s φ) (hx : ∀ i, IsFin (x i)) (hy : ∀ i, IsFin (y i)) :
    ∀ i, IsFin (mulf x y i) :=
  fun i => (hx i).mul (hy i)

/-- The entrywise sum of two finite arrays is finite. -/
theorem fin_addf {s : Shape} {φ : FTy} (x y : FVec Ideal s φ) (hx : ∀ i, IsFin (x i)) (hy : ∀ i, IsFin (y i)) :
    ∀ i, IsFin (addf x y i) :=
  fun i => (hx i).add (hy i)

/-- A select picks, at each index, the entry of one of its two branches. -/
theorem fin_select {s : Shape} (c : IVec s 1) (a b : s.Idx → EReal) (ha : ∀ i, IsFin (a i)) (hb : ∀ i, IsFin (b i)) :
    ∀ i, IsFin (select c a b i) := by
  intro i
  unfold select Scalar.select
  split
  · exact ha i
  · exact hb i

/-- A scatter with addition: each entry is the operand's plus a finite sum of update entries. -/
theorem fin_scatterAdd {s si u : Shape} {w : Nat} {φ : FTy} (d : ScatterDims s si u) (x : FVec Ideal s φ)
    (idx : IVec si w) (upd : FVec Ideal u φ) (hx : ∀ i, IsFin (x i)) (hu : ∀ j, IsFin (upd j)) :
    ∀ i, IsFin (Host.scatterAdd (F := Ideal) d x idx upd i) := by
  intro i
  unfold Host.scatterAdd
  rw [Ideal.hostScatterAdd_def]
  unfold Ideal.hostScatterAdd
  exact (hx i).add (IsFin.sum _ _ fun j _ => hu j)

/-- A matrix product: each entry is zero plus a finite sum of products of entries. -/
theorem fin_dotGeneral {sl sr so : Shape} {φ₁ φ₂ : FTy} (d : DotDims sl sr so) (prec : Option ContractPrecision)
    (l : FVec Ideal sl φ₁) (r : FVec Ideal sr φ₂) (hl : ∀ i, IsFin (l i)) (hr : ∀ i, IsFin (r i)) :
    ∀ j, IsFin (Host.dotGeneral (F := Ideal) d prec l r j) := by
  intro j
  unfold Host.dotGeneral
  rw [Ideal.dotGeneral_def]
  unfold Ideal.matmul
  exact IsFin.zero.add (IsFin.sum _ _ fun k _ => (hl _).mul (hr _))

/-- The constant array of the word of 0.0 is 0 at every index. -/
theorem constant_zero_apply (s : Shape) (i : s.Idx) : constant (F := Ideal) s .f32 0x00000000#32 i = 0 := by
  unfold constant
  rw [Ideal.ofBits_def, Ideal.ofBits_zero_f32]

/-- The constant array of the word of 1.0 is 1 at every index. -/
theorem constant_one_apply (s : Shape) (i : s.Idx) : constant (F := Ideal) s .f32 0x3F800000#32 i = 1 := by
  unfold constant
  rw [Ideal.ofBits_def, Ideal.ofBits_one_f32]

theorem fin_constant_zero (s : Shape) : ∀ i, IsFin (constant (F := Ideal) s .f32 0x00000000#32 i) := by
  intro i; rw [constant_zero_apply]; exact IsFin.zero

theorem fin_constant_one (s : Shape) : ∀ i, IsFin (constant (F := Ideal) s .f32 0x3F800000#32 i) := by
  intro i; rw [constant_one_apply]; exact IsFin.one

end Cert.BnSpec

end
-- ==== Proof.AggFinite.lean ====
/-
  Every entry of the linear map's and of the aggregation's result is a real number, when the inputs' entries are.

  The edge weights are real whatever the edge table holds: a degree is 0 plus a finite sum of ones, hence a real;
  "the reciprocal square root of the degree where it is positive, 0 elsewhere" takes the reciprocal square root only of
  a positive real, hence is a real in both branches; a weight is a product of two such gathered values and a 1. The
  linear map's entries are zero plus finite sums of products of reals. The aggregation gathers rows of h, multiplies by
  the weights, adds finitely many of these onto 0, and adds the bias: reals throughout.
-/
import proofs.«162372_j88785563943645_1_alg».proof.Proof.RefTerm
import proofs.«162372_j88785563943645_1_alg».proof.Proof.Finite

noncomputable section

namespace Cert.ReferenceIdeal.Term

open Idealize.ShloMosaic Idealize.ShloMosaic.ValueIdx
open Cert.BnSpec
open Cert.ReferenceIdeal.Facts₀ Cert.ReferenceIdeal.Facts

variable [Cert.ReferenceIdeal.Facts]

/-- At the extended reals a float comparison is the order's comparison. -/
theorem cmpf_ideal {φ : FTy} (p : CmpFPredicate) (x y : Ideal φ) :
    FloatOps.cmpf (F := Ideal) p x y = Ideal.cmp p x y := rfl

/-- The reciprocal square root of an array, read at an index. -/
theorem hostRsqrt_apply {s : Shape} {φ : FTy} (v : FVec Ideal s φ) (i : s.Idx) :
    Host.rsqrt (F := Ideal) v i = Ideal.rsqrt (v i) := rfl

/-- The weight 1 on every edge is a real. -/
theorem ones_fin : ∀ i, IsFin (ones i) := by
  unfold ones
  exact fin_broadcastInDim _ _ _ _ (fin_constant_one _)

/-- A degree is 0 plus a finite sum of ones: a real. -/
theorem deg_fin (e : IVec S2x1600000 32) : ∀ i, IsFin (deg e i) := by
  unfold deg
  exact fin_scatterAdd _ _ _ _ (fin_broadcastInDim _ _ _ _ (fin_constant_zero _)) ones_fin

/-- d(v)^(-1/2) where d(v) > 0, and 0 elsewhere, is a real: the reciprocal square root is taken of a positive real. -/
theorem dinv_fin (e : IVec S2x1600000 32) : ∀ i, IsFin (dinv e i) := by
  intro i
  have hd := deg_fin e i
  have h0 : (broadcastInDim S100000 ![] bcast_S_S100000 (constant (F := Ideal) S_ .f32 0x00000000#32)) i = 0 :=
    constant_zero_apply _ _
  have h0' : (broadcastInDim S100000 ![] bcast_S_S100000 (id (constant (F := Ideal) S_ .f32 0x00000000#32))) i = 0 :=
    h0
  unfold dinv
  rw [select_apply, cmpf_apply, hostRsqrt_apply, cmpf_ideal, h0, h0']
  generalize deg e i = d at hd ⊢
  exact IsFin.select_gt_rsqrt hd

/-- An edge weight d(s)^(-1/2) · 1 · d(t)^(-1/2) is a real. -/
theorem norm_fin (e : IVec S2x1600000 32) : ∀ i, IsFin (norm e i) := by
  unfold norm
  exact fin_mulf _ _ (fin_mulf _ _ (fin_gather _ _ _ (dinv_fin e)) ones_fin) (fin_gather _ _ _ (dinv_fin e))

/-- The entries of h = x · W are reals when those of x and W are. -/
theorem lin_fin (x : FVec Ideal S100000x64 .f32) (W : FVec Ideal S64x64 .f32)
    (hx : ∀ i, IsFin (x i)) (hW : ∀ i, IsFin (W i)) : ∀ i, IsFin (lin x W i) := by
  unfold lin
  exact fin_dotGeneral _ _ _ _ hx hW

/-- The entries of the aggregated array are reals when those of h and of the bias are, whatever the edge table. -/
theorem agg_fin (h : FVec Ideal S100000x64 .f32) (e : IVec S2x1600000 32) (b : FVec Ideal S64 .f32)
    (hh : ∀ i, IsFin (h i)) (hb : ∀ i, IsFin (b i)) : ∀ i, IsFin (agg h e b i) := by
  unfold agg
  exact fin_addf _ _
    (fin_scatterAdd _ _ _ _ (fin_broadcastInDim _ _ _ _ (fin_constant_zero _))
      (fin_mulf _ _ (fin_gather _ _ _ hh)
        (fin_broadcastInDim _ _ _ _ (fin_broadcastInDim _ _ _ _ (norm_fin e)))))
    (fin_broadcastInDim _ _ _ _ (fin_broadcastInDim _ _ _ _ hb))

end Cert.ReferenceIdeal.Term

end
-- ==== Proof.PreFinite.lean ====
/-
  From the precondition to entrywise finiteness of the float inputs.

  The precondition says that, for each float input array, "the absolute value of every entry is below plus infinity",
  conjoined over the arrays. An extended real whose absolute value max x (−x) is below +∞ is neither infinity (at −∞
  the absolute value is +∞ as well), hence a real number. A conjunction of one-bit words is 1 exactly when each is; an
  and-reduction over a whole array that came out 1 met a 1 at every index.
-/
import proofs.«162372_j88785563943645_1_alg».proof.Defs
import proofs.«162372_j88785563943645_1_alg».proof.Proof.Gen.Pre_finite_inputs
import proofs.«162372_j88785563943645_1_alg».proof.Proof.BnSpec
import Idealize.ShloMosaic.Lib.ReduceAll

noncomputable section

namespace Cert.BnSpec.Pre

open Idealize.ShloMosaic Idealize.ShloMosaic.ValueIdx Idealize.SL.Sem
open Cert.BnSpec

/-- The scalar shape has one index. -/
instance : Subsingleton Cert.Pre_finite_inputs.S_.Idx := ⟨fun _ _ => funext fun d => d.elim0⟩

/-- The binary32 word 0x7F800000 denotes +∞. -/
theorem inf_word : Ideal.ofBits .f32 0x7F800000#32 = ⊤ := by simp [Ideal.ofBits, Ideal.ieee]

/-- An extended real whose absolute value is below +∞ is a real number. -/
theorem isFin_of_abs_lt_inf (x : EReal)
    (h : Ideal.cmp .olt (max x (-x)) (Ideal.ofBits .f32 0x7F800000#32) = 1#1) : IsFin x := by
  rw [inf_word] at h
  unfold Ideal.cmp at h
  induction x using EReal.rec with
  | bot => simp at h
  | top => simp at h
  | coe r => exact ⟨r, rfl⟩

/-- An array of which "every |entry| is below +∞", and-reduced over all axes, is 1 has only real entries. -/
theorem fin_of_all {s : Shape} {axes : List (Fin s.rank)}
    {hb : Cert.Pre_finite_inputs.S_.BroadcastsInDim s (![] : Fin 0 → Fin s.rank)}
    {hred : s.ReducesTo axes Cert.Pre_finite_inputs.S_} {hu : 0 < Cert.Pre_finite_inputs.S_.numel}
    {x : FVec Ideal s .f32}
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hred hu ix0 = 1#1) :
    ∀ i, IsFin (x i) := by
  intro i
  have h1 := Host.reduce_andi_all _ _ hred hu ix0 e i
  exact isFin_of_abs_lt_inf (x i) h1

/-- The precondition, split: one and-reduction per float input. -/
theorem pre_split [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsFin (m ((c.tc : Thread Cert.KernelIdeal.nD Cert.KernelIdeal.τ).loc Cert.KernelIdeal.main_arg0) i)) ∧
    (∀ i, IsFin (m ((c.tc : Thread Cert.KernelIdeal.nD Cert.KernelIdeal.τ).loc Cert.KernelIdeal.main_arg2) i)) ∧
    (∀ i, IsFin (m ((c.tc : Thread Cert.KernelIdeal.nD Cert.KernelIdeal.τ).loc Cert.KernelIdeal.main_arg3) i)) ∧
    (∀ i, IsFin (m ((c.tc : Thread Cert.KernelIdeal.nD Cert.KernelIdeal.τ).loc Cert.KernelIdeal.main_arg4) i)) ∧
    (∀ i, IsFin (m ((c.tc : Thread Cert.KernelIdeal.nD Cert.KernelIdeal.τ).loc Cert.KernelIdeal.main_arg5) i)) := by
  have e := congrFun (h c) ix0
  dsimp only [Cert.Pre_finite_inputs.fn, Cert.Pre_finite_inputs.fn_part1, andi] at e
  simp only [IntOp.andi_eq_one] at e
  obtain ⟨⟨⟨⟨e0, e2⟩, e3⟩, e4⟩, e5⟩ := e
  exact ⟨fin_of_all e0, fin_of_all e2, fin_of_all e3, fin_of_all e4, fin_of_all e5⟩

/-- Every entry of the feature array x is a real number. -/
theorem x_fin [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : (⟨2, ![100000, 64]⟩ : Shape).Idx) :
    IsFin (m ((c.tc : Thread Cert.KernelIdeal.nD Cert.KernelIdeal.τ).loc Cert.KernelIdeal.main_arg0) i) :=
  (pre_split m h c).1 i

/-- Every entry of the weight matrix W is a real number. -/
theorem w_fin [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : (⟨2, ![64, 64]⟩ : Shape).Idx) :
    IsFin (m ((c.tc : Thread Cert.KernelIdeal.nD Cert.KernelIdeal.τ).loc Cert.KernelIdeal.main_arg2) i) :=
  (pre_split m h c).2.1 i

/-- Every entry of the bias vector is a real number. -/
theorem b_fin [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : (⟨1, ![64]⟩ : Shape).Idx) :
    IsFin (m ((c.tc : Thread Cert.KernelIdeal.nD Cert.KernelIdeal.τ).loc Cert.KernelIdeal.main_arg3) i) :=
  (pre_split m h c).2.2.1 i

/-- Every entry of the BatchNorm scale γ is a real number. -/
theorem gamma_fin [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : (⟨1, ![64]⟩ : Shape).Idx) :
    IsFin (m ((c.tc : Thread Cert.KernelIdeal.nD Cert.KernelIdeal.τ).loc Cert.KernelIdeal.main_arg4) i) :=
  (pre_split m h c).2.2.2.1 i

/-- Every entry of the BatchNorm shift β is a real number. -/
theorem beta_fin [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : (⟨1, ![64]⟩ : Shape).Idx) :
    IsFin (m ((c.tc : Thread Cert.KernelIdeal.nD Cert.KernelIdeal.τ).loc Cert.KernelIdeal.main_arg5) i) :=
  (pre_split m h c).2.2.2.2 i

end Cert.BnSpec.Pre

end
-- ==== Proof.KResult.lean ====
/-
  The kernel program's result is the reference's.

  Both programs aggregate the same array: the first kernel region leaves the product `x · W` (the same contraction as the
  reference's), and the host chain around it is the reference's. On that array `a` the kernel's statistics region leaves
  the column sums of `a` and of `a²`, from which the host forms the mean and the variance `E[a²] − (E[a])²`; the last
  region normalises with them. The reference normalises with the centred variance `E[(a − E[a])²]`. The two variances
  agree because every entry of `a` is a real number: the inputs are finite, and a product of reals, a finite sum of
  reals, and the inverse square root of a positive real are real.
-/
import proofs.«162372_j88785563943645_1_alg».proof.Proof.KValue
import proofs.«162372_j88785563943645_1_alg».proof.Proof.BnRegion
import proofs.«162372_j88785563943645_1_alg».proof.Proof.StatsRegion
import proofs.«162372_j88785563943645_1_alg».proof.Proof.MatmulRegion
import proofs.«162372_j88785563943645_1_alg».proof.Proof.MatmulRef
import proofs.«162372_j88785563943645_1_alg».proof.Proof.KBn
import proofs.«162372_j88785563943645_1_alg».proof.Proof.AggBridge
import proofs.«162372_j88785563943645_1_alg».proof.Proof.RefRead
import proofs.«162372_j88785563943645_1_alg».proof.Proof.VarianceLaw
import proofs.«162372_j88785563943645_1_alg».proof.Proof.AggFinite
import proofs.«162372_j88785563943645_1_alg».proof.Proof.PreFinite
import proofs.«162372_j88785563943645_1_alg».proof.Proof.Gen.ReferenceIdeal
import proofs.«162372_j88785563943645_1_alg».proof.Proof.Gen.Pre_finite_inputs

set_option maxRecDepth 16384

noncomputable section

namespace Cert.KernelIdeal.KResult

open Idealize.ShloMosaic Idealize.ShloMosaic.TcCoe Idealize.ShloMosaic.ValueIdx Idealize.SL.Sem
open Cert.KernelIdeal Cert.KernelIdeal.Gen Cert.KernelIdeal.KValue
open Cert.BnSpec (IsFin)

variable (m : (ℓ : Loc nD τ sig) → Buf (Elt Ideal) ℓ) (ρ : Dev nD → PrngReg) (c : Dev nD)

/-- The six argument arrays, at their literal shapes. -/
abbrev argX : FVec Ideal S100000x64 .f32 := m ((c.tc : Thread nD τ).loc main_arg0)
abbrev argE : IVec S2x1600000 32 := m ((c.tc : Thread nD τ).loc main_arg1)
abbrev argW : FVec Ideal S64x64 .f32 := m ((c.tc : Thread nD τ).loc main_arg2)
abbrev argB : FVec Ideal S64 .f32 := m ((c.tc : Thread nD τ).loc main_arg3)
abbrev argG : FVec Ideal S64 .f32 := m ((c.tc : Thread nD τ).loc main_arg4)
abbrev argS : FVec Ideal S64 .f32 := m ((c.tc : Thread nD τ).loc main_arg5)

/-- The aggregated array, as the reference computes it from the arguments. -/
abbrev aggR : FVec Ideal S100000x64 .f32 :=
  Cert.ReferenceIdeal.Term.agg (Cert.ReferenceIdeal.Term.lin (argX m c) (argW m c)) (argE m c) (argB m c)

/-- The two statistics arrays the second region leaves. -/
abbrev stat1 : FVec Ideal S1x64 .f32 := W6 (F := Ideal) m ρ c (Proc.devRef .tc main_v48_0)
abbrev stat2 : FVec Ideal S1x64 .f32 := W6 (F := Ideal) m ρ c (Proc.devRef .tc main_v48_1)

/-- The first region leaves the product `x · W`, the reference's contraction. -/
theorem lin_eq : W4 (F := Ideal) m ρ c (Proc.devRef .tc main_v31) = Cert.ReferenceIdeal.Term.lin (argX m c) (argW m c) := by
  rw [w4_v31, MatmulRegion.arr_eq (V3 m ρ) c]
  have hx : V3 (F := Ideal) m ρ c (Pipeline.arrRef spec0 0) = argX m c := w3_arg m ρ c main_arg0 (by simp)
  have hw : V3 (F := Ideal) m ρ c (Pipeline.arrRef spec0 1) = argW m c := w3_arg m ρ c main_arg2 (by simp)
  rw [hx, hw]
  funext i
  obtain ⟨p, q, rfl⟩ : ∃ (p : Fin 100000) (q : Fin 64), i = ix2 p q := ⟨i 0, i 1, eq_ix2 i⟩
  rw [MatmulRegion.prod_apply]
  unfold Cert.ReferenceIdeal.Term.lin
  exact (Cert.ReferenceIdeal.MatmulRef.dot_apply _ _ p q).symm

/-- The aggregated array after the second stretch is the reference's. -/
theorem agg5 : W5 (F := Ideal) m ρ c (Proc.devRef .tc main_v47) = aggR m c := by
  rw [w5_v47, lin_eq]
  exact KTerm.agg_eq _ _ _

/-- So is the array the last region reads. -/
theorem agg7 : W7 (F := Ideal) m ρ c (Proc.devRef .tc main_v47) = aggR m c :=
  (w7_v47 m ρ c).trans ((w6_v47 m ρ c).trans (agg5 m ρ c))

/-- The first statistic: the column sums of the aggregated array. -/
theorem stat1_apply (q : Fin 64) : stat1 m ρ c (ix2 0 q) = ∑ p : Fin 100000, aggR m c (ix2 p q) := by
  refine (congrFun (w6_v48_0 m ρ c) (ix2 0 q)).trans ((StatsRegion.sum_apply (V5 m ρ) c q).trans ?_)
  have h : StatsRegion.arr (V5 (F := Ideal) m ρ) c = aggR m c := agg5 m ρ c
  rw [h]

/-- The second statistic: the column sums of its squares. -/
theorem stat2_apply (q : Fin 64) : stat2 m ρ c (ix2 0 q) = ∑ p : Fin 100000, aggR m c (ix2 p q) * aggR m c (ix2 p q) := by
  refine (congrFun (w6_v48_1 m ρ c) (ix2 0 q)).trans ((StatsRegion.sumsq_apply (V5 m ρ) c q).trans ?_)
  have h : StatsRegion.arr (V5 (F := Ideal) m ρ) c = aggR m c := agg5 m ρ c
  rw [h]

/-- The kernel's result at an entry: normalised with the variance from the two moments. -/
theorem result_moments (p : Fin 100000) (q : Fin 64) :
    W8 (F := Ideal) m ρ c (Proc.devRef .tc main_v57) (ix2 p q)
      = Cert.BnSpec.bn (aggR m c) (Cert.BnSpec.varMoments (aggR m c)) (fun q => argG m c (ix1 q)) (fun q => argS m c (ix1 q)) p q := by
  refine (congrFun (w8_v57 m ρ c) (ix2 p q)).trans ?_
  refine (BnRegion.arr_apply (V7 m ρ) c p q).trans ?_
  have h0 : V7 (F := Ideal) m ρ c (Pipeline.arrRef spec2 0) = aggR m c := agg7 m ρ c
  have h1 : V7 (F := Ideal) m ρ c (Pipeline.arrRef spec2 1) = Host.divf (F := Ideal) (stat1 m ρ c) (broadcastInDim S1x64 ![] bcast_S_S1x64 (constant (F := Ideal) S_ .f32 0x47C35000#32)) := w7_v50 m ρ c
  have h2 : V7 (F := Ideal) m ρ c (Pipeline.arrRef spec2 2)
      = subf (F := Ideal) (Host.divf (F := Ideal) (stat2 m ρ c) (broadcastInDim S1x64 ![] bcast_S_S1x64 (constant (F := Ideal) S_ .f32 0x47C35000#32)))
          (mulf (F := Ideal) (Host.divf (F := Ideal) (stat1 m ρ c) (broadcastInDim S1x64 ![] bcast_S_S1x64 (constant (F := Ideal) S_ .f32 0x47C35000#32))) (Host.divf (F := Ideal) (stat1 m ρ c) (broadcastInDim S1x64 ![] bcast_S_S1x64 (constant (F := Ideal) S_ .f32 0x47C35000#32)))) := w7_v54 m ρ c
  have h3 : V7 (F := Ideal) m ρ c (Pipeline.arrRef spec2 3) = shapeCast S1x64 (argG m c) shapeCasts_S64_S1x64 := w7_v55 m ρ c
  have h4 : V7 (F := Ideal) m ρ c (Pipeline.arrRef spec2 4) = shapeCast S1x64 (argS m c) shapeCasts_S64_S1x64 := w7_v56 m ρ c
  rw [h0, h1, h2, h3, h4]
  exact KBn.G_eq_bn (aggR m c) (stat1 m ρ c) (stat2 m ρ c) (argG m c) (argS m c) (stat1_apply m ρ c) (stat2_apply m ρ c) p q

/-- Every entry of the aggregated array is a real number when the inputs are finite. -/
theorem aggR_fin (h : Cert.Pre_KernelIdeal m) : ∀ i, IsFin (aggR m c i) :=
  Cert.ReferenceIdeal.Term.agg_fin _ _ _
    (Cert.ReferenceIdeal.Term.lin_fin _ _ (fun i => Cert.BnSpec.Pre.x_fin m h c i) (fun i => Cert.BnSpec.Pre.w_fin m h c i))
    (fun i => Cert.BnSpec.Pre.b_fin m h c i)

/-- THE RESULT: under the precondition the kernel's result array is the reference's output term of the arguments. -/
theorem result_eq (h : Cert.Pre_KernelIdeal m) :
    W8 (F := Ideal) m ρ c (Proc.devRef .tc main_v57) = Cert.ReferenceIdeal.Term.out (aggR m c) (argG m c) (argS m c) := by
  funext i
  obtain ⟨p, q, rfl⟩ : ∃ (p : Fin 100000) (q : Fin 64), i = ix2 p q := ⟨i 0, i 1, eq_ix2 i⟩
  refine (result_moments m ρ c p q).trans ?_
  rw [Cert.ReferenceIdeal.Term.out_apply]
  unfold Cert.BnSpec.bn
  rw [Cert.BnSpec.Law.var_eq (aggR m c) q (fun p => aggR_fin m c h _)]

end Cert.KernelIdeal.KResult

end
-- ==== Proof.RefRun.lean ====
/-
  The reference's run read back. Its straight line of host operations — the functions it calls written out where
  they are called — is listed window by window; every weakly fair execution of it terminates, and each buffer ends
  holding the fold of the operations over the launch contents. Read at the result, that fold is the composition
  normalise ∘ aggregate ∘ linear map of the arguments; read at an argument, it is the argument.
-/
import proofs.«162372_j88785563943645_1_alg».proof.Proof.RefTerm
import proofs.«162372_j88785563943645_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option Elab.async false

/-- The first window's operations in order, the edge-weight selection's three operations standing where it is
    called: the edge lists, the degrees, the edge weights, the linear map, the aggregation and the bias. -/
abbrev ops_part0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.unary main_cst_2 main_call0_v0 ((id) : (⟨S_, .f32⟩ : BufTy).Contents (Elt F) → (⟨S_, .f32⟩ : BufTy).Contents (Elt F)),
    StableHlo.unary main_call0_v0 main_call0_v1 ((broadcastInDim S100000 ![] bcast_S_S100000) : (⟨S_, .f32⟩ : BufTy).Contents (Elt F) → (⟨S100000, .f32⟩ : BufTy).Contents (Elt F)),
    StableHlo.ternary main_v12 main_v13 main_call0_v1 main_v14 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v7 main_v22 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)),
    StableHlo.binary main_arg0 main_arg2 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_6 (constantI S_ 32 0#32),
    StableHlo.unary main_c_6 main_v32 (broadcastInDim S1700000 ![] bcast_S_S1700000 : (⟨S_, .i32⟩ : BufTy).Contents (Elt F) → (⟨S1700000, .i32⟩ : BufTy).Contents (Elt F)),
    StableHlo.binary main_v3 main_v32 main_v33 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v34 (broadcastInDim S1700000 ![] bcast_S_S1700000 : (⟨S_, .i32⟩ : BufTy).Contents (Elt F) → (⟨S1700000, .i32⟩ : BufTy).Contents (Elt F)),
    StableHlo.binary main_v3 main_v34 main_v35 (addi : (⟨S1700000, .i32⟩ : BufTy).Contents (Elt F) → (⟨S1700000, .i32⟩ : BufTy).Contents (Elt F) → (⟨S1700000, .i32⟩ : BufTy).Contents (Elt F)),
    StableHlo.ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v36 main_v37 (broadcastInDim S1700000x1 ![0] bcast_S1700000_S1700000x1_0 : (⟨S1700000, .i32⟩ : BufTy).Contents (Elt F) → (⟨S1700000x1, .i32⟩ : BufTy).Contents (Elt F)),
    StableHlo.binary main_v31 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v30 main_v39 (broadcastInDim S1700000x1 ![0] bcast_S1700000_S1700000x1_0 : (⟨S1700000, .f32⟩ : BufTy).Contents (Elt F) → (⟨S1700000x1, .f32⟩ : BufTy).Contents (Elt F)),
    StableHlo.unary main_v39 main_v40 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v38 main_v40 main_v41 (mulf : (⟨S1700000x64, .f32⟩ : BufTy).Contents (Elt F) → (⟨S1700000x64, .f32⟩ : BufTy).Contents (Elt F) → (⟨S1700000x64, .f32⟩ : BufTy).Contents (Elt F)),
    StableHlo.nullary main_cst_8 (constant S_ .f32 0x00000000#32),
    StableHlo.unary main_cst_8 main_v42 (broadcastInDim S100000x64 ![] bcast_S_S100000x64 : (⟨S_, .f32⟩ : BufTy).Contents (Elt F) → (⟨S100000x64, .f32⟩ : BufTy).Contents (Elt F)),
    StableHlo.unary main_v6 main_v43 (broadcastInDim S1700000x1 ![0] bcast_S1700000_S1700000x1_0 : (⟨S1700000, .i32⟩ : BufTy).Contents (Elt F) → (⟨S1700000x1, .i32⟩ : BufTy).Contents (Elt F)),
    StableHlo.ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x00000000#32) ]

/-- The second window's operations in order, the variance's nineteen operations and its selection's three
    standing where they are called: the column means, the centred variance, the normalisation. -/
abbrev ops_part1 : List (HloOp τ sig (Elt F)) :=
  [ StableHlo.binary main_v47 main_cst_9 main_v48 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_10 (constant S_ .f32 0x47C35000#32),
    StableHlo.unary main_cst_10 main_v49 (broadcastInDim S64 ![] bcast_S_S64 : (⟨S_, .f32⟩ : BufTy).Contents (Elt F) → (⟨S64, .f32⟩ : BufTy).Contents (Elt F)),
    StableHlo.binary main_v48 main_v49 main_v50 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.nullary main_call1_cst ((constant S_ .f32 0x00000000#32) : (⟨S_, .f32⟩ : BufTy).Contents (Elt F)),
    StableHlo.binary main_v47 main_call1_cst main_call1_v0 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_call1_v0 main_call1_v1 ((broadcastInDim S1x64 ![1] bcast_S64_S1x64_1) : (⟨S64, .f32⟩ : BufTy).Contents (Elt F) → (⟨S1x64, .f32⟩ : BufTy).Contents (Elt F)),
    StableHlo.nullary main_call1_cst_0 ((constant S_ .f32 0x47C35000#32) : (⟨S_, .f32⟩ : BufTy).Contents (Elt F)),
    StableHlo.unary main_call1_cst_0 main_call1_v2 ((broadcastInDim S1x64 ![] bcast_S_S1x64) : (⟨S_, .f32⟩ : BufTy).Contents (Elt F) → (⟨S1x64, .f32⟩ : BufTy).Contents (Elt F)),
    StableHlo.binary main_call1_v1 main_call1_v2 main_call1_v3 ((Host.divf) : (⟨S1x64, .f32⟩ : BufTy).Contents (Elt F) → (⟨S1x64, .f32⟩ : BufTy).Contents (Elt F) → (⟨S1x64, .f32⟩ : BufTy).Contents (Elt F)),
    StableHlo.unary main_call1_v3 main_call1_v4 ((broadcastInDim S100000x64 ![0, 1] bcast_S1x64_S100000x64_0_1) : (⟨S1x64, .f32⟩ : BufTy).Contents (Elt F) → (⟨S100000x64, .f32⟩ : BufTy).Contents (Elt F)),
    StableHlo.binary main_v47 main_call1_v4 main_call1_v5 ((subf) : (⟨S100000x64, .f32⟩ : BufTy).Contents (Elt F) → (⟨S100000x64, .f32⟩ : BufTy).Contents (Elt F) → (⟨S100000x64, .f32⟩ : BufTy).Contents (Elt F)),
    StableHlo.binary main_call1_v5 main_call1_v5 main_call1_v6 ((mulf) : (⟨S100000x64, .f32⟩ : BufTy).Contents (Elt F) → (⟨S100000x64, .f32⟩ : BufTy).Contents (Elt F) → (⟨S100000x64, .f32⟩ : BufTy).Contents (Elt F)),
    StableHlo.unary main_c_11 main_call1_v7 ((sitofp .f32) : (⟨S_, .i32⟩ : BufTy).Contents (Elt F) → (⟨S_, .f32⟩ : BufTy).Contents (Elt F)),
    StableHlo.nullary main_call1_cst_1 ((constant S_ .f32 0x47C35000#32) : (⟨S_, .f32⟩ : BufTy).Contents (Elt F)),
    StableHlo.binary main_call1_cst_1 main_call1_v7 main_call1_v8 ((subf) : (⟨S_, .f32⟩ : BufTy).Contents (Elt F) → (⟨S_, .f32⟩ : BufTy).Contents (Elt F) → (⟨S_, .f32⟩ : BufTy).Contents (Elt F)),
    StableHlo.nullary main_call1_cst_2 ((constant S_ .f32 0x00000000#32) : (⟨S_, .f32⟩ : BufTy).Contents (Elt F)),
    StableHlo.binary main_call1_v6 main_call1_cst_2 main_call1_v9 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_call1_v8 main_call1_v10 ((broadcastInDim S64 ![] bcast_S_S64) : (⟨S_, .f32⟩ : BufTy).Contents (Elt F) → (⟨S64, .f32⟩ : BufTy).Contents (Elt F)),
    StableHlo.binary main_call1_v9 main_call1_v10 main_call1_v11 ((Host.divf) : (⟨S64, .f32⟩ : BufTy).Contents (Elt F) → (⟨S64, .f32⟩ : BufTy).Contents (Elt F) → (⟨S64, .f32⟩ : BufTy).Contents (Elt F)),
    StableHlo.nullary main_call1_cst_3 ((constant S_ .f32 0x00000000#32) : (⟨S_, .f32⟩ : BufTy).Contents (Elt F)),
    StableHlo.binary main_call1_v8 main_call1_cst_3 main_call1_v12 ((cmpf .ogt) : (⟨S_, .f32⟩ : BufTy).Contents (Elt F) → (⟨S_, .f32⟩ : BufTy).Contents (Elt F) → (⟨S_, .i1⟩ : BufTy).Contents (Elt F)),
    StableHlo.nullary main_call1_cst_4 ((constant S_ .f32 0x7FC00000#32) : (⟨S_, .f32⟩ : BufTy).Contents (Elt F)),
    StableHlo.unary main_call1_cst_4 main_call1_call0_v0 ((id) : (⟨S_, .f32⟩ : BufTy).Contents (Elt F) → (⟨S_, .f32⟩ : BufTy).Contents (Elt F)),
    StableHlo.unary main_call1_call0_v0 main_call1_call0_v1 ((broadcastInDim S64 ![] bcast_S_S64) : (⟨S_, .f32⟩ : BufTy).Contents (Elt F) → (⟨S64, .f32⟩ : BufTy).Contents (Elt F)),
    StableHlo.ternary main_call1_v12 main_call1_v11 main_call1_call0_v1 main_v51 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    StableHlo.unary main_v50 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v53 main_v54 (subf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v55 (broadcastInDim S64 ![] bcast_S_S64 : (⟨S_, .f32⟩ : BufTy).Contents (Elt F) → (⟨S64, .f32⟩ : BufTy).Contents (Elt F)),
    StableHlo.binary main_v51 main_v55 main_v56 (addf : (⟨S64, .f32⟩ : BufTy).Contents (Elt F) → (⟨S64, .f32⟩ : BufTy).Contents (Elt F) → (⟨S64, .f32⟩ : BufTy).Contents (Elt F)),
    StableHlo.unary main_v56 main_v57 (Host.rsqrt : (⟨S64, .f32⟩ : BufTy).Contents (Elt F) → (⟨S64, .f32⟩ : BufTy).Contents (Elt F)),
    StableHlo.unary main_v57 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v59 main_v60 (mulf : (⟨S100000x64, .f32⟩ : BufTy).Contents (Elt F) → (⟨S100000x64, .f32⟩ : BufTy).Contents (Elt F) → (⟨S100000x64, .f32⟩ : BufTy).Contents (Elt F)),
    StableHlo.unary main_arg4 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v62 main_v63 (mulf : (⟨S100000x64, .f32⟩ : BufTy).Contents (Elt F) → (⟨S100000x64, .f32⟩ : BufTy).Contents (Elt F) → (⟨S100000x64, .f32⟩ : BufTy).Contents (Elt F)),
    StableHlo.unary main_arg5 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (addf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x00000000#32),
    StableHlo.unary main_cst_13 main_v67 (broadcastInDim S100000x64 ![] bcast_S_S100000x64 : (⟨S_, .f32⟩ : BufTy).Contents (Elt F) → (⟨S100000x64, .f32⟩ : BufTy).Contents (Elt F)),
    StableHlo.binary main_v66 main_v67 main_v68 (maximumf : (⟨S100000x64, .f32⟩ : BufTy).Contents (Elt F) → (⟨S100000x64, .f32⟩ : BufTy).Contents (Elt F) → (⟨S100000x64, .f32⟩ : BufTy).Contents (Elt F)) ]

/-- All the operations, in order. -/
abbrev ops : List (HloOp τ sig (Elt F)) :=
  ops_part0 ++ ops_part1

set_option maxRecDepth 8192 in
/-- The first window is that straight line: the called function's definition unfolded at its call and its
    record at its fields, then sequencing reassociated. -/
theorem main_part0_eq (c : Dev nD) : main_part0 (F := F) c = seq ops_part0 := rfl

set_option maxRecDepth 8192 in
/-- The second window likewise, the variance and the selection inside it unfolded. -/
theorem main_part1_eq (c : Dev nD) : main_part1 (F := F) c = seq ops_part1 := rfl

set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub ..⟩

set_option maxRecDepth 8192 in
theorem ops_part1_sub : (ops_part1 : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-! ## The first window, stretch by stretch

The first window's operations are read in four stretches — the edge lists; the degrees and their inverse roots;
the edge weights; the linear map, the aggregation and the bias — each from any contents that hold what the
earlier stretches left. -/

section Stretches

/-- The edge lists. -/
abbrev opsA : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The weight 1, the degrees, their inverse roots. -/
abbrev opsB : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.unary main_cst_2 main_call0_v0 ((id) : (⟨S_, .f32⟩ : BufTy).Contents (Elt F) → (⟨S_, .f32⟩ : BufTy).Contents (Elt F)),
    StableHlo.unary main_call0_v0 main_call0_v1 ((broadcastInDim S100000 ![] bcast_S_S100000) : (⟨S_, .f32⟩ : BufTy).Contents (Elt F) → (⟨S100000, .f32⟩ : BufTy).Contents (Elt F)),
    StableHlo.ternary main_v12 main_v13 main_call0_v1 main_v14 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- The edge weights. -/
abbrev opsC : List (HloOp τ sig (Elt F)) :=
  [ StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v7 main_v22 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)) ]

/-- The linear map, the aggregation, the bias, and the word of 0 the next window's sum starts from. -/
abbrev opsD : List (HloOp τ sig (Elt F)) :=
  [ StableHlo.binary main_arg0 main_arg2 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_6 (constantI S_ 32 0#32),
    StableHlo.unary main_c_6 main_v32 (broadcastInDim S1700000 ![] bcast_S_S1700000 : (⟨S_, .i32⟩ : BufTy).Contents (Elt F) → (⟨S1700000, .i32⟩ : BufTy).Contents (Elt F)),
    StableHlo.binary main_v3 main_v32 main_v33 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v34 (broadcastInDim S1700000 ![] bcast_S_S1700000 : (⟨S_, .i32⟩ : BufTy).Contents (Elt F) → (⟨S1700000, .i32⟩ : BufTy).Contents (Elt F)),
    StableHlo.binary main_v3 main_v34 main_v35 (addi : (⟨S1700000, .i32⟩ : BufTy).Contents (Elt F) → (⟨S1700000, .i32⟩ : BufTy).Contents (Elt F) → (⟨S1700000, .i32⟩ : BufTy).Contents (Elt F)),
    StableHlo.ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v36 main_v37 (broadcastInDim S1700000x1 ![0] bcast_S1700000_S1700000x1_0 : (⟨S1700000, .i32⟩ : BufTy).Contents (Elt F) → (⟨S1700000x1, .i32⟩ : BufTy).Contents (Elt F)),
    StableHlo.binary main_v31 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v30 main_v39 (broadcastInDim S1700000x1 ![0] bcast_S1700000_S1700000x1_0 : (⟨S1700000, .f32⟩ : BufTy).Contents (Elt F) → (⟨S1700000x1, .f32⟩ : BufTy).Contents (Elt F)),
    StableHlo.unary main_v39 main_v40 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v38 main_v40 main_v41 (mulf : (⟨S1700000x64, .f32⟩ : BufTy).Contents (Elt F) → (⟨S1700000x64, .f32⟩ : BufTy).Contents (Elt F) → (⟨S1700000x64, .f32⟩ : BufTy).Contents (Elt F)),
    StableHlo.nullary main_cst_8 (constant S_ .f32 0x00000000#32),
    StableHlo.unary main_cst_8 main_v42 (broadcastInDim S100000x64 ![] bcast_S_S100000x64 : (⟨S_, .f32⟩ : BufTy).Contents (Elt F) → (⟨S100000x64, .f32⟩ : BufTy).Contents (Elt F)),
    StableHlo.unary main_v6 main_v43 (broadcastInDim S1700000x1 ![0] bcast_S1700000_S1700000x1_0 : (⟨S1700000, .i32⟩ : BufTy).Contents (Elt F) → (⟨S1700000x1, .i32⟩ : BufTy).Contents (Elt F)),
    StableHlo.ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x00000000#32) ]

theorem ops_part0_split : (ops_part0 : List (HloOp τ sig (Elt F))) = opsA ++ (opsB ++ (opsC ++ opsD)) := rfl

/-- A fold over two lines run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ### The edge lists -/

theorem A_v3 (V : Valuation τ sig (Elt Ideal)) : after opsA V (Proc.devRef .tc main_v3) = Term.src (V (Proc.devRef .tc main_arg1)) := by
  after_results_simp
  rfl

theorem A_v6 (V : Valuation τ sig (Elt Ideal)) : after opsA V (Proc.devRef .tc main_v6) = Term.dst (V (Proc.devRef .tc main_arg1)) := by
  after_results_simp
  rfl

theorem A_keep_main_arg0 (V : Valuation τ sig (Elt Ideal)) : after opsA V (Proc.devRef .tc main_arg0) = V (Proc.devRef .tc main_arg0) := by
  after_results_simp

theorem A_keep_main_arg1 (V : Valuation τ sig (Elt Ideal)) : after opsA V (Proc.devRef .tc main_arg1) = V (Proc.devRef .tc main_arg1) := by
  after_results_simp

theorem A_keep_main_arg2 (V : Valuation τ sig (Elt Ideal)) : after opsA V (Proc.devRef .tc main_arg2) = V (Proc.devRef .tc main_arg2) := by
  after_results_simp

theorem A_keep_main_arg3 (V : Valuation τ sig (Elt Ideal)) : after opsA V (Proc.devRef .tc main_arg3) = V (Proc.devRef .tc main_arg3) := by
  after_results_simp

theorem A_keep_main_arg4 (V : Valuation τ sig (Elt Ideal)) : after opsA V (Proc.devRef .tc main_arg4) = V (Proc.devRef .tc main_arg4) := by
  after_results_simp

theorem A_keep_main_arg5 (V : Valuation τ sig (Elt Ideal)) : after opsA V (Proc.devRef .tc main_arg5) = V (Proc.devRef .tc main_arg5) := by
  after_results_simp

/-! ### The degrees and their inverse roots -/

theorem B_v7 (V : Valuation τ sig (Elt Ideal)) : after opsB V (Proc.devRef .tc main_v7) = Term.ones := by
  after_results_simp
  rfl

theorem B_v14 (V : Valuation τ sig (Elt Ideal)) (e : IVec S2x1600000 32) (h6 : V (Proc.devRef .tc main_v6) = Term.dst e) :
    after opsB V (Proc.devRef .tc main_v14) = Term.dinv e := by
  after_results_simp
  rw [h6]
  rfl

theorem B_keep_main_v3 (V : Valuation τ sig (Elt Ideal)) : after opsB V (Proc.devRef .tc main_v3) = V (Proc.devRef .tc main_v3) := by
  after_results_simp

theorem B_keep_main_v6 (V : Valuation τ sig (Elt Ideal)) : after opsB V (Proc.devRef .tc main_v6) = V (Proc.devRef .tc main_v6) := by
  after_results_simp

theorem B_keep_main_arg0 (V : Valuation τ sig (Elt Ideal)) : after opsB V (Proc.devRef .tc main_arg0) = V (Proc.devRef .tc main_arg0) := by
  after_results_simp

theorem B_keep_main_arg1 (V : Valuation τ sig (Elt Ideal)) : after opsB V (Proc.devRef .tc main_arg1) = V (Proc.devRef .tc main_arg1) := by
  after_results_simp

theorem B_keep_main_arg2 (V : Valuation τ sig (Elt Ideal)) : after opsB V (Proc.devRef .tc main_arg2) = V (Proc.devRef .tc main_arg2) := by
  after_results_simp

theorem B_keep_main_arg3 (V : Valuation τ sig (Elt Ideal)) : after opsB V (Proc.devRef .tc main_arg3) = V (Proc.devRef .tc main_arg3) := by
  after_results_simp

theorem B_keep_main_arg4 (V : Valuation τ sig (Elt Ideal)) : after opsB V (Proc.devRef .tc main_arg4) = V (Proc.devRef .tc main_arg4) := by
  after_results_simp

theorem B_keep_main_arg5 (V : Valuation τ sig (Elt Ideal)) : after opsB V (Proc.devRef .tc main_arg5) = V (Proc.devRef .tc main_arg5) := by
  after_results_simp

/-! ### The edge weights -/

theorem C_v30 (V : Valuation τ sig (Elt Ideal)) (e : IVec S2x1600000 32) (h3 : V (Proc.devRef .tc main_v3) = Term.src e) (h6 : V (Proc.devRef .tc main_v6) = Term.dst e)
    (h7 : V (Proc.devRef .tc main_v7) = Term.ones) (h14 : V (Proc.devRef .tc main_v14) = Term.dinv e) :
    after opsC V (Proc.devRef .tc main_v30) = Term.norm e := by
  after_results_simp
  rw [h3, h6, h7, h14]
  rfl

theorem C_keep_main_v3 (V : Valuation τ sig (Elt Ideal)) : after opsC V (Proc.devRef .tc main_v3) = V (Proc.devRef .tc main_v3) := by
  after_results_simp

theorem C_keep_main_v6 (V : Valuation τ sig (Elt Ideal)) : after opsC V (Proc.devRef .tc main_v6) = V (Proc.devRef .tc main_v6) := by
  after_results_simp

theorem C_keep_main_arg0 (V : Valuation τ sig (Elt Ideal)) : after opsC V (Proc.devRef .tc main_arg0) = V (Proc.devRef .tc main_arg0) := by
  after_results_simp

theorem C_keep_main_arg1 (V : Valuation τ sig (Elt Ideal)) : after opsC V (Proc.devRef .tc main_arg1) = V (Proc.devRef .tc main_arg1) := by
  after_results_simp

theorem C_keep_main_arg2 (V : Valuation τ sig (Elt Ideal)) : after opsC V (Proc.devRef .tc main_arg2) = V (Proc.devRef .tc main_arg2) := by
  after_results_simp

theorem C_keep_main_arg3 (V : Valuation τ sig (Elt Ideal)) : after opsC V (Proc.devRef .tc main_arg3) = V (Proc.devRef .tc main_arg3) := by
  after_results_simp

theorem C_keep_main_arg4 (V : Valuation τ sig (Elt Ideal)) : after opsC V (Proc.devRef .tc main_arg4) = V (Proc.devRef .tc main_arg4) := by
  after_results_simp

theorem C_keep_main_arg5 (V : Valuation τ sig (Elt Ideal)) : after opsC V (Proc.devRef .tc main_arg5) = V (Proc.devRef .tc main_arg5) := by
  after_results_simp

/-! ### The linear map and the aggregation -/

theorem D_v47 (V : Valuation τ sig (Elt Ideal)) (e : IVec S2x1600000 32) (x : FVec Ideal S100000x64 .f32) (W : FVec Ideal S64x64 .f32)
    (b : FVec Ideal S64 .f32) (h0 : V (Proc.devRef .tc main_arg0) = x) (h2 : V (Proc.devRef .tc main_arg2) = W) (hb : V (Proc.devRef .tc main_arg3) = b)
    (h3 : V (Proc.devRef .tc main_v3) = Term.src e) (h6 : V (Proc.devRef .tc main_v6) = Term.dst e) (h30 : V (Proc.devRef .tc main_v30) = Term.norm e) :
    after opsD V (Proc.devRef .tc main_v47) = Term.agg (Term.lin x W) e b := by
  after_results_simp
  rw [h0, h2, hb, h3, h6, h30]
  rfl

theorem D_cst_9 (V : Valuation τ sig (Elt Ideal)) : after opsD V (Proc.devRef .tc main_cst_9) = constant (F := Ideal) S_ .f32 0x00000000#32 := by
  after_results_simp

theorem D_keep_main_arg0 (V : Valuation τ sig (Elt Ideal)) : after opsD V (Proc.devRef .tc main_arg0) = V (Proc.devRef .tc main_arg0) := by
  after_results_simp

theorem D_keep_main_arg1 (V : Valuation τ sig (Elt Ideal)) : after opsD V (Proc.devRef .tc main_arg1) = V (Proc.devRef .tc main_arg1) := by
  after_results_simp

theorem D_keep_main_arg2 (V : Valuation τ sig (Elt Ideal)) : after opsD V (Proc.devRef .tc main_arg2) = V (Proc.devRef .tc main_arg2) := by
  after_results_simp

theorem D_keep_main_arg3 (V : Valuation τ sig (Elt Ideal)) : after opsD V (Proc.devRef .tc main_arg3) = V (Proc.devRef .tc main_arg3) := by
  after_results_simp

theorem D_keep_main_arg4 (V : Valuation τ sig (Elt Ideal)) : after opsD V (Proc.devRef .tc main_arg4) = V (Proc.devRef .tc main_arg4) := by
  after_results_simp

theorem D_keep_main_arg5 (V : Valuation τ sig (Elt Ideal)) : after opsD V (Proc.devRef .tc main_arg5) = V (Proc.devRef .tc main_arg5) := by
  after_results_simp

/-! ### The stretches joined -/

theorem at3_main_arg0 (V : Valuation τ sig (Elt Ideal)) : after opsC (after opsB (after opsA V)) (Proc.devRef .tc main_arg0) = V (Proc.devRef .tc main_arg0) :=
  (C_keep_main_arg0 _).trans ((B_keep_main_arg0 _).trans (A_keep_main_arg0 V))
theorem at3_main_arg1 (V : Valuation τ sig (Elt Ideal)) : after opsC (after opsB (after opsA V)) (Proc.devRef .tc main_arg1) = V (Proc.devRef .tc main_arg1) :=
  (C_keep_main_arg1 _).trans ((B_keep_main_arg1 _).trans (A_keep_main_arg1 V))
theorem at3_main_arg2 (V : Valuation τ sig (Elt Ideal)) : after opsC (after opsB (after opsA V)) (Proc.devRef .tc main_arg2) = V (Proc.devRef .tc main_arg2) :=
  (C_keep_main_arg2 _).trans ((B_keep_main_arg2 _).trans (A_keep_main_arg2 V))
theorem at3_main_arg3 (V : Valuation τ sig (Elt Ideal)) : after opsC (after opsB (after opsA V)) (Proc.devRef .tc main_arg3) = V (Proc.devRef .tc main_arg3) :=
  (C_keep_main_arg3 _).trans ((B_keep_main_arg3 _).trans (A_keep_main_arg3 V))
theorem at3_main_arg4 (V : Valuation τ sig (Elt Ideal)) : after opsC (after opsB (after opsA V)) (Proc.devRef .tc main_arg4) = V (Proc.devRef .tc main_arg4) :=
  (C_keep_main_arg4 _).trans ((B_keep_main_arg4 _).trans (A_keep_main_arg4 V))
theorem at3_main_arg5 (V : Valuation τ sig (Elt Ideal)) : after opsC (after opsB (after opsA V)) (Proc.devRef .tc main_arg5) = V (Proc.devRef .tc main_arg5) :=
  (C_keep_main_arg5 _).trans ((B_keep_main_arg5 _).trans (A_keep_main_arg5 V))

theorem at2_v3 (V : Valuation τ sig (Elt Ideal)) : after opsB (after opsA V) (Proc.devRef .tc main_v3) = Term.src (V (Proc.devRef .tc main_arg1)) :=
  (B_keep_main_v3 _).trans (A_v3 V)
theorem at2_v6 (V : Valuation τ sig (Elt Ideal)) : after opsB (after opsA V) (Proc.devRef .tc main_v6) = Term.dst (V (Proc.devRef .tc main_arg1)) :=
  (B_keep_main_v6 _).trans (A_v6 V)
theorem at3_v3 (V : Valuation τ sig (Elt Ideal)) : after opsC (after opsB (after opsA V)) (Proc.devRef .tc main_v3) = Term.src (V (Proc.devRef .tc main_arg1)) :=
  (C_keep_main_v3 _).trans (at2_v3 V)
theorem at3_v6 (V : Valuation τ sig (Elt Ideal)) : after opsC (after opsB (after opsA V)) (Proc.devRef .tc main_v6) = Term.dst (V (Proc.devRef .tc main_arg1)) :=
  (C_keep_main_v6 _).trans (at2_v6 V)
theorem at3_v30 (V : Valuation τ sig (Elt Ideal)) : after opsC (after opsB (after opsA V)) (Proc.devRef .tc main_v30) = Term.norm (V (Proc.devRef .tc main_arg1)) :=
  C_v30 _ _ (at2_v3 V) (at2_v6 V) (B_v7 _) (B_v14 _ _ (A_v6 V))

end Stretches

/-! ## The values -/

section Values

/-- After the first window the aggregate's buffer holds the aggregation of the linear map of the arguments. -/
theorem part0_v47 (V0 : Valuation τ sig (Elt Ideal)) :
    after ops_part0 V0 (Proc.devRef .tc main_v47)
      = Term.agg (Term.lin (V0 (Proc.devRef .tc main_arg0)) (V0 (Proc.devRef .tc main_arg2))) (V0 (Proc.devRef .tc main_arg1)) (V0 (Proc.devRef .tc main_arg3)) := by
  rw [ops_part0_split, after_app, after_app, after_app]
  exact D_v47 _ _ _ _ _ (at3_main_arg0 V0) (at3_main_arg2 V0) (at3_main_arg3 V0) (at3_v3 V0) (at3_v6 V0) (at3_v30 V0)

/-- The first window leaves the word of 0 in the buffer the second window's first sum starts from. -/
theorem part0_main_cst_9 (V0 : Valuation τ sig (Elt Ideal)) :
    after ops_part0 V0 (Proc.devRef .tc main_cst_9) = constant (F := Ideal) S_ .f32 0x00000000#32 := by
  rw [ops_part0_split, after_app, after_app, after_app]
  exact D_cst_9 _

theorem part0_main_arg0 (V0 : Valuation τ sig (Elt Ideal)) :
    after ops_part0 V0 (Proc.devRef .tc main_arg0) = V0 (Proc.devRef .tc main_arg0) := by
  rw [ops_part0_split, after_app, after_app, after_app]
  exact (D_keep_main_arg0 _).trans (at3_main_arg0 V0)

theorem part0_main_arg1 (V0 : Valuation τ sig (Elt Ideal)) :
    after ops_part0 V0 (Proc.devRef .tc main_arg1) = V0 (Proc.devRef .tc main_arg1) := by
  rw [ops_part0_split, after_app, after_app, after_app]
  exact (D_keep_main_arg1 _).trans (at3_main_arg1 V0)

theorem part0_main_arg2 (V0 : Valuation τ sig (Elt Ideal)) :
    after ops_part0 V0 (Proc.devRef .tc main_arg2) = V0 (Proc.devRef .tc main_arg2) := by
  rw [ops_part0_split, after_app, after_app, after_app]
  exact (D_keep_main_arg2 _).trans (at3_main_arg2 V0)

theorem part0_main_arg3 (V0 : Valuation τ sig (Elt Ideal)) :
    after ops_part0 V0 (Proc.devRef .tc main_arg3) = V0 (Proc.devRef .tc main_arg3) := by
  rw [ops_part0_split, after_app, after_app, after_app]
  exact (D_keep_main_arg3 _).trans (at3_main_arg3 V0)

theorem part0_main_arg4 (V0 : Valuation τ sig (Elt Ideal)) :
    after ops_part0 V0 (Proc.devRef .tc main_arg4) = V0 (Proc.devRef .tc main_arg4) := by
  rw [ops_part0_split, after_app, after_app, after_app]
  exact (D_keep_main_arg4 _).trans (at3_main_arg4 V0)

theorem part0_main_arg5 (V0 : Valuation τ sig (Elt Ideal)) :
    after ops_part0 V0 (Proc.devRef .tc main_arg5) = V0 (Proc.devRef .tc main_arg5) := by
  rw [ops_part0_split, after_app, after_app, after_app]
  exact (D_keep_main_arg5 _).trans (at3_main_arg5 V0)

/-- After the second window the result's buffer holds the normalisation of what the aggregate's buffer held. -/
theorem part1_v68 (V0 : Valuation τ sig (Elt Ideal))
    (h9 : V0 (Proc.devRef .tc main_cst_9) = constant (F := Ideal) S_ .f32 0x00000000#32) :
    after ops_part1 V0 (Proc.devRef .tc main_v68)
      = Term.out (V0 (Proc.devRef .tc main_v47)) (V0 (Proc.devRef .tc main_arg4)) (V0 (Proc.devRef .tc main_arg5)) := by
  after_results_simp
  rw [h9]
  rfl

theorem part1_main_arg0 (V0 : Valuation τ sig (Elt Ideal)) :
    after ops_part1 V0 (Proc.devRef .tc main_arg0) = V0 (Proc.devRef .tc main_arg0) := by
  after_results_simp

theorem part1_main_arg1 (V0 : Valuation τ sig (Elt Ideal)) :
    after ops_part1 V0 (Proc.devRef .tc main_arg1) = V0 (Proc.devRef .tc main_arg1) := by
  after_results_simp

theorem part1_main_arg2 (V0 : Valuation τ sig (Elt Ideal)) :
    after ops_part1 V0 (Proc.devRef .tc main_arg2) = V0 (Proc.devRef .tc main_arg2) := by
  after_results_simp

theorem part1_main_arg3 (V0 : Valuation τ sig (Elt Ideal)) :
    after ops_part1 V0 (Proc.devRef .tc main_arg3) = V0 (Proc.devRef .tc main_arg3) := by
  after_results_simp

theorem part1_main_arg4 (V0 : Valuation τ sig (Elt Ideal)) :
    after ops_part1 V0 (Proc.devRef .tc main_arg4) = V0 (Proc.devRef .tc main_arg4) := by
  after_results_simp

theorem part1_main_arg5 (V0 : Valuation τ sig (Elt Ideal)) :
    after ops_part1 V0 (Proc.devRef .tc main_arg5) = V0 (Proc.devRef .tc main_arg5) := by
  after_results_simp

theorem after_ops (V0 : Valuation τ sig (Elt Ideal)) : after ops V0 = after ops_part1 (after ops_part0 V0) :=
  after_app ops_part0 ops_part1 V0

end Values

/-- On every device, from any memory with zero counters: every weakly fair execution of the reference terminates
    with its result at the normalisation of the aggregation of the linear map of the arguments' launch contents,
    and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v68) = Term.out (Term.agg (Term.lin (m ((c.tc : Thread nD τ).loc main_arg0)) (m ((c.tc : Thread nD τ).loc main_arg2))) (m ((c.tc : Thread nD τ).loc main_arg1)) (m ((c.tc : Thread nD τ).loc main_arg3))) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c =>
    ⟨(h c main_v68).trans (by
        rw [after_ops, part1_v68 _ (part0_main_cst_9 _), part0_v47, part0_main_arg4, part0_main_arg5]
        first | done | rfl),
      (h c main_arg0).trans (by rw [after_ops, part1_main_arg0, part0_main_arg0]; first | done | rfl),
      (h c main_arg1).trans (by rw [after_ops, part1_main_arg1, part0_main_arg1]; first | done | rfl),
      (h c main_arg2).trans (by rw [after_ops, part1_main_arg2, part0_main_arg2]; first | done | rfl),
      (h c main_arg3).trans (by rw [after_ops, part1_main_arg3, part0_main_arg3]; first | done | rfl),
      (h c main_arg4).trans (by rw [after_ops, part1_main_arg4, part0_main_arg4]; first | done | rfl),
      (h c main_arg5).trans (by rw [after_ops, part1_main_arg5, part0_main_arg5]; first | done | rfl)⟩)
    (run_seq scopedRefs_eq scopedSems_eq (defs (F := Ideal)) (main (F := Ideal)) (fun _ => ops) main_eq (fun _ => ops_sub) m ρ)

end Cert.ReferenceIdeal.RefRun

end
-- ==== Proof.lean ====
/-
  The claim: a graph-convolution layer followed by batch normalisation and a clamp at zero, as a three-region kernel
  program and as a plain array program, compute the same array on the extended reals whenever the float inputs are finite.

  Both programs form, for a graph on 100000 nodes with 1600000 edges and a loop at every node, the aggregate
  `a(t, ·) = Σ_{s → t} d(s)^(−1/2) d(t)^(−1/2) (x · W)(s, ·) + b`, then normalise each of the 64 columns of `a` to mean 0
  and variance 1 (plus ε under the root), scale by γ, shift by β and clamp below at 0. The kernel program computes
  `x · W`, the column statistics and the normalisation in three kernel regions and the gather / scatter-add on the host;
  it takes the variance as `E[a²] − (E[a])²`. The reference takes it as `E[(a − E[a])²]`. On the extended reals the two
  agree when every entry of `a` is a real number, which the finiteness of the inputs gives: sums and products of reals
  are real, and so is the inverse square root of a positive degree.

  The three frames: the two kernel programs' runs terminate without a fault and leave the arguments as launched; the
  reference's run does the same and its result is named. The idealised kernel program is the kernel program's own text
  read at the exact instance: no operation was rewritten, so there is nothing to preserve.
-/
import proofs.«162372_j88785563943645_1_alg».proof.Defs
import proofs.«162372_j88785563943645_1_alg».proof.Proof.Gen.Kernel
import proofs.«162372_j88785563943645_1_alg».proof.Proof.Gen.Kernel.Skeleton
import proofs.«162372_j88785563943645_1_alg».proof.Proof.Gen.Kernel.Launch
import proofs.«162372_j88785563943645_1_alg».proof.Proof.Gen.Kernel.Points
import proofs.«162372_j88785563943645_1_alg».proof.Proof.Gen.Kernel.Frame
import proofs.«162372_j88785563943645_1_alg».proof.Proof.Gen.KernelIdeal
import proofs.«162372_j88785563943645_1_alg».proof.Proof.Gen.KernelIdeal.Skeleton
import proofs.«162372_j88785563943645_1_alg».proof.Proof.Gen.KernelIdeal.Launch
import proofs.«162372_j88785563943645_1_alg».proof.Proof.Gen.KernelIdeal.Points
import proofs.«162372_j88785563943645_1_alg».proof.Proof.Gen.KernelIdeal.Frame
import proofs.«162372_j88785563943645_1_alg».proof.Proof.Gen.ReferenceIdeal
import proofs.«162372_j88785563943645_1_alg».proof.Proof.Gen.Pre_finite_inputs
import proofs.«162372_j88785563943645_1_alg».proof.Proof.KRun
import proofs.«162372_j88785563943645_1_alg».proof.Proof.KResult
import proofs.«162372_j88785563943645_1_alg».proof.Proof.RefRun
import Idealize.ShloMosaic.Adequacy
import Idealize.ShloMosaic.Init

noncomputable section

namespace Cert.Proof

open Idealize.ShloMosaic Idealize.SL.Sem

/-- The kernel program as printed runs to the end without a fault and leaves its arguments as launched. -/
theorem frame_kernel : Cert.frame_Kernel := fun m ρ _ => Cert.Kernel.Gen.frame m ρ

/-- So does the kernel program read at the exact instance. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.RefRun.run m ρ)

/-- No operation of the kernel program was rewritten for the exact instance. -/
theorem preserves : Cert.preserves_Kernel_KernelIdeal := trivial

/-- From memories that agree on the six arguments, finite on the float ones, both programs end with the normalised
    aggregate of the arguments: the kernel program by its three regions and the variance law, the reference by its run. -/
theorem algebraic : Cert.algebraic_KernelIdeal_ReferenceIdeal := by
  intro m ρ m' ρ' hpre hagree
  refine ⟨fun c => Cert.ReferenceIdeal.Term.out (Cert.KernelIdeal.KResult.aggR m c)
      (Cert.KernelIdeal.KResult.argG m c) (Cert.KernelIdeal.KResult.argS m c), ?_, ?_⟩
  · exact (θ_run Cert.KernelIdeal.defs _ _).mono
      (fun r h c => ⟨(h c).1.trans (Cert.KernelIdeal.KResult.result_eq m ρ c hpre), (h c).2⟩)
      (Cert.KernelIdeal.KRun.run_final m ρ)
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
